-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part3 {F : FTy → Type} [FloatOps F] (main_arg12 : FVec F S128 .f32) (main_arg13 : FVec F S128x1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  main_v63

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : FVec F S50000x3 .f32) (main_arg2 : IVec S2x600000 32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x3 : Shape := ⟨2, ![600000, 3]⟩
abbrev S1x128 : Shape := ⟨2, ![1, 128]⟩
abbrev S1600x128 : Shape := ⟨2, ![1600, 128]⟩
abbrev S1600x3 : Shape := ⟨2, ![1600, 3]⟩
abbrev S1600 : Shape := ⟨1, ![1600]⟩
abbrev S1600x1 : Shape := ⟨2, ![1600, 1]⟩
abbrev S2000x128 : Shape := ⟨2, ![2000, 128]⟩

abbrev nBuf : Space → Nat
  | .hbm => 77
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x3, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x3, .f32⟩
  | .hbm, ⟨54, _⟩ => ⟨S600000x3, .f32⟩
  | .hbm, ⟨55, _⟩ => ⟨S128x128, .f32⟩
  | .hbm, ⟨56, _⟩ => ⟨S128x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S600000x128, .f32⟩
  | .hbm, ⟨62, _⟩ => ⟨S600000x3, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S_, .f32⟩
  | .hbm, ⟨68, _⟩ => ⟨S50000x3, .f32⟩
  | .hbm, ⟨69, _⟩ => ⟨S600000x1, .i32⟩
  | .hbm, ⟨70, _⟩ => ⟨S50000x3, .f32⟩
  | .hbm, ⟨71, _⟩ => ⟨S128x128, .f32⟩
  | .hbm, ⟨72, _⟩ => ⟨S128x128, .f32⟩
  | .hbm, ⟨73, _⟩ => ⟨S1x128, .f32⟩
  | .hbm, ⟨74, _⟩ => ⟨S1x128, .f32⟩
  | .hbm, ⟨75, _⟩ => ⟨S50000x128, .f32⟩
  | .hbm, ⟨76, _⟩ => ⟨S50000x3, .f32⟩
  | .local _ .vmem, ⟨0, _⟩ => ⟨S1600x128, .f32⟩
  | .local _ .vmem, ⟨1, _⟩ => ⟨S1600x128, .f32⟩
  | .local _ .vmem, ⟨2, _⟩ => ⟨S1600x128, .f32⟩
  | .local _ .vmem, ⟨3, _⟩ => ⟨S1600x128, .f32⟩
  | .local _ .vmem, ⟨4, _⟩ => ⟨S1600x3, .f32⟩
  | .local _ .vmem, ⟨5, _⟩ => ⟨S1600x3, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S1600x128, .f32⟩
  | .local _ .vmem, ⟨16, _⟩ => ⟨S1600x128, .f32⟩
  | .local _ .vmem, ⟨17, _⟩ => ⟨S1600x3, .f32⟩
  | .local _ .vmem, ⟨18, _⟩ => ⟨S1600x3, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39_0 : Ref sig .tc := ⟨.hbm, 61, rfl⟩
abbrev main_v39_1 : Ref sig .tc := ⟨.hbm, 62, rfl⟩
abbrev main_cst : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨1, ![375], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1600x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1600x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  bitsLt_bf16_f32 : FTy.bits .bf16 < FTy.bits .f32
  inb_S1600x3_S1600x3_0_0 : ∀ a, (![0, 0] : Fin 2 → Nat) a + S1600x3.size a ≤ S1600x3.size a
  h_S1600x3 : 0 < S1600x3.numel
  shapeCasts_S1600x3_S1600x3 : S1600x3.ShapeCasts S1600x3
  reduces_S1600x3_S1600 : S1600x3.Reduces [1] S1600
  shapeCasts_S1600_S1600x1 : S1600.ShapeCasts S1600x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1600x1_S1600x128 : S1600x1.Broadcasts S1600x128
  broadcasts_S1x128_S1600x128 : S1x128.Broadcasts S1600x128
  inb_S128x1_S128x1_0_0 : ∀ a, (![0, 0] : Fin 2 → Nat) a + S128x1.size a ≤ S128x1.size a
  h_S128x1 : 0 < S128x1.numel
  broadcasts_S1600x1_S1600x3 : S1600x1.Broadcasts S1600x3
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  gather_S50000x3_S600000x1_S600000x3_1_0_n_n_0_1_13_wf : GatherDims.WF S50000x3 S600000x1 S600000x3 [1] [0] [] [0] [] 1 ![1, 3]
  dot_S1600x128_S128x128_S1600x128_1_0_0_1_n_n_wf : DotDims.WF S1600x128 S128x128 S1600x128 [1] [0] [0] [1] [] []
  dot_S1600x128_S128x1_S1600x1_1_0_0_1_n_n_wf : DotDims.WF S1600x128 S128x1 S1600x1 [1] [0] [0] [1] [] []
  scatter_S50000x128_S600000x1_S600000x128_1_0_0_1_wf : ScatterDims.WF S50000x128 S600000x1 S600000x128 [1] [0] [0] 1
  scatter_S50000x3_S600000x1_S600000x3_1_0_0_1_wf : ScatterDims.WF S50000x3 S600000x1 S600000x3 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x128.size a ≤ S600000x128.size a
  hwx0_0 : ∀ i : grid0.Coords, EltTy.bits .f32 = 32 ∨ (Rect.block (s := S600000x128) S1600x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x128.size a ≤ S600000x128.size a
  hwx0_1 : ∀ i : grid0.Coords, EltTy.bits .f32 = 32 ∨ (Rect.block (s := S600000x128) S1600x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x3.size a ≤ S600000x3.size a
  hwx0_2 : ∀ i : grid0.Coords, EltTy.bits .f32 = 32 ∨ (Rect.block (s := S600000x3) S1600x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1600x128.size a ≤ S600000x128.size a
  hwx0_12 : ∀ i : grid0.Coords, EltTy.bits .f32 = 32 ∨ (Rect.block (s := S600000x128) S1600x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1600x3.size a ≤ S600000x3.size a
  hwx0_13 : ∀ i : grid0.Coords, EltTy.bits .f32 = 32 ∨ (Rect.block (s := S600000x3) S1600x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def dot_S1600x128_S128x128_S1600x128_1_0_0_1_n_n : DotDims S1600x128 S128x128 S1600x128 where
  lhsContracting := [1]
  rhsContracting := [0]
  lhsNonContracting := [0]
  rhsNonContracting := [1]
  lhsBatch := []
  rhsBatch := []
  wf := dot_S1600x128_S128x128_S1600x128_1_0_0_1_n_n_wf
def dot_S1600x128_S128x1_S1600x1_1_0_0_1_n_n : DotDims S1600x128 S128x1 S1600x1 where
  lhsContracting := [1]
  rhsContracting := [0]
  lhsNonContracting := [0]
  rhsNonContracting := [1]
  lhsBatch := []
  rhsBatch := []
  wf := dot_S1600x128_S128x1_S1600x1_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x3_S600000x1_S600000x3_1_0_0_1 : ScatterDims S50000x3 S600000x1 S600000x3 where
  updateWindowDims := [1]
  insertedWindowDims := [0]
  scatterDimsToOperandDims := [0]
  indexVectorDim := 1
  wf := scatter_S50000x3_S600000x1_S600000x3_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v10) S1600x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1600x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v39_0) S1600x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v39_1) S1600x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S600000x257 : Shape := ⟨2, ![600000, 257]⟩
abbrev S1x128 : Shape := ⟨2, ![1, 128]⟩
abbrev S50000x256 : Shape := ⟨2, ![50000, 256]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x3, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x3, .f32⟩
  | .hbm, ⟨36, _⟩ => ⟨S600000x3, .f32⟩
  | .hbm, ⟨37, _⟩ => ⟨S600000x3, .f32⟩
  | .hbm, ⟨38, _⟩ => ⟨S_, .f32⟩
  | .hbm, ⟨39, _⟩ => ⟨S600000, .f32⟩
  | .hbm, ⟨40, _⟩ => ⟨S600000x1, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S600000x257, .f32⟩
  | .hbm, ⟨60, _⟩ => ⟨S600000x128, .f32⟩
  | .hbm, ⟨61, _⟩ => ⟨S1x128, .f32⟩
  | .hbm, ⟨62, _⟩ => ⟨S600000x128, .f32⟩
  | .hbm, ⟨63, _⟩ => ⟨S600000x128, .f32⟩
  | .hbm, ⟨64, _⟩ => ⟨S_, .f32⟩
  | .hbm, ⟨65, _⟩ => ⟨S600000x128, .f32⟩
  | .hbm, ⟨66, _⟩ => ⟨S600000x128, .f32⟩
  | .hbm, ⟨67, _⟩ => ⟨S600000x128, .f32⟩
  | .hbm, ⟨68, _⟩ => ⟨S1x128, .f32⟩
  | .hbm, ⟨69, _⟩ => ⟨S600000x128, .f32⟩
  | .hbm, ⟨70, _⟩ => ⟨S600000x128, .f32⟩
  | .hbm, ⟨71, _⟩ => ⟨S_, .f32⟩
  | .hbm, ⟨72, _⟩ => ⟨S50000x128, .f32⟩
  | .hbm, ⟨73, _⟩ => ⟨S600000x1, .i32⟩
  | .hbm, ⟨74, _⟩ => ⟨S50000x128, .f32⟩
  | .hbm, ⟨75, _⟩ => ⟨S50000x256, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S600000x128, .f32⟩
  | .hbm, ⟨88, _⟩ => ⟨S1x128, .f32⟩
  | .hbm, ⟨89, _⟩ => ⟨S600000x128, .f32⟩
  | .hbm, ⟨90, _⟩ => ⟨S600000x128, .f32⟩
  | .hbm, ⟨91, _⟩ => ⟨S_, .f32⟩
  | .hbm, ⟨92, _⟩ => ⟨S600000x128, .f32⟩
  | .hbm, ⟨93, _⟩ => ⟨S600000x128, .f32⟩
  | .hbm, ⟨94, _⟩ => ⟨S600000x1, .f32⟩
  | .hbm, ⟨95, _⟩ => ⟨S600000x3, .f32⟩
  | .hbm, ⟨96, _⟩ => ⟨S600000x3, .f32⟩
  | .hbm, ⟨97, _⟩ => ⟨S_, .f32⟩
  | .hbm, ⟨98, _⟩ => ⟨S50000x3, .f32⟩
  | .hbm, ⟨99, _⟩ => ⟨S600000x1, .i32⟩
  | .hbm, ⟨100, _⟩ => ⟨S50000x3, .f32⟩
  | .hbm, ⟨101, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_cst : Ref sig .tc := ⟨.hbm, 64, rfl⟩
abbrev main_call0_v0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call1_cst : Ref sig .tc := ⟨.hbm, 80, rfl⟩
abbrev main_call1_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call2_cst : Ref sig .tc := ⟨.hbm, 91, rfl⟩
abbrev main_call2_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_8 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  concatenates_S600000x128_S600000x128_S600000x1_S600000x257_d1 : Shape.Concatenates [S600000x128, S600000x128, S600000x1] S600000x257 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S600000x1_S600000x3_0_1 : S600000x1.BroadcastsInDim S600000x3 (![0, 1] : Fin 2 → Fin S600000x3.rank)
  bcast_S_S50000x3 : S_.BroadcastsInDim S50000x3 (![] : Fin 0 → Fin S50000x3.rank)
  gather_S50000x3_S600000x1_S600000x3_1_0_n_n_0_1_13_wf : GatherDims.WF S50000x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S600000x257_S257x128_S600000x128_1_0_0_1_n_n_wf : DotDims.WF S600000x257 S257x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S600000x128_S128x1_S600000x1_1_0_0_1_n_n_wf : DotDims.WF S600000x128 S128x1 S600000x1 [1] [0] [0] [1] [] []
  scatter_S50000x3_S600000x1_S600000x3_1_0_0_1_wf : ScatterDims.WF S50000x3 S600000x1 S600000x3 [1] [0] [0] 1

variable [Facts₀]

def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x257_S257x128_S600000x128_1_0_0_1_n_n : DotDims S600000x257 S257x128 S600000x128 where
  lhsContracting := [1]
  rhsContracting := [0]
  lhsNonContracting := [0]
  rhsNonContracting := [1]
  lhsBatch := []
  rhsBatch := []
  wf := dot_S600000x257_S257x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def scatter_S50000x3_S600000x1_S600000x3_1_0_0_1 : ScatterDims S50000x3 S600000x1 S600000x3 where
  updateWindowDims := [1]
  insertedWindowDims := [0]
  scatterDimsToOperandDims := [0]
  indexVectorDim := 1
  wf := scatter_S50000x3_S600000x1_S600000x3_1_0_0_1_wf

class Facts : Prop extends Facts₀ where

variable [Facts]
-- ==== Proof.KRun.lean ====
/-
  The idealized kernel's run with its two results named.

  @main is five segments: host operations, the edge region, host operations, the node region, one host addition. The
  buffers' contents at the segment boundaries are a fold from the launch memory (W0 … W5 of the generated frame
  module): a stretch of host operations applies its operations in order, a region leaves its arrays at what its
  write-backs fold to and every other buffer as entered. A core's state at a boundary is: every unscoped buffer held
  at that boundary's contents, the generator register at some state, nothing owed. Each segment takes the state at
  one boundary to the state at the next, so from the launch every weakly fair execution terminates with every
  unscoped buffer at W5; read for the two result buffers, and for the arguments back through the fold to the launch
  memory, that is the run stated here.
-/
import proofs.«133342_j5832565588032_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's state at a boundary whose buffer contents are `W`. -/
abbrev atBoundary (W : Dev nD → Valuation τ sig (Elt F)) (c : Dev nD) : sProp 𝕄 :=
  iprop(StableHlo.held (c : Thread nD τ) (Pipeline.ucRefs τ sig) (W c) ∗ R c)

/-- What every core's final buffers are read as: each unscoped buffer at the last boundary's contents. -/
abbrev endsAt (c : Dev nD) (s : MemSt nD τ sig (Elt F)) : Prop :=
  ∀ b ∈ Pipeline.ucRefs τ sig, s.mem (((c : Thread nD τ)).1, b) = W5 m ρ c b

/-- The five segments chain: each is entered from the state the one before it left, and after the last the register
    stays beside the buffers while "nothing owed" is set apart. -/
theorem chain : Pipeline.Seg.Chains (atBoundary (W0 m ρ)) (segs m ρ)
    (fun c => iprop(Tₙ m ρ c ∗ ∃ W, owes (c : Thread nD τ) (0 : CellTallies nD τ sig Unit) W)) := by
  refine ⟨fun _ => .rfl, fun _ => .rfl, fun _ => .rfl, fun _ => .rfl, fun _ => .rfl, fun c => ?_⟩
  dsimp only [Pipeline.Seg.post, hseg, Pipeline.HostSeg.ofOps]
  iintro ⟨Hbufs, Hreg, Howes⟩
  isplitr [Howes]
  · isplitl [Hbufs]
    · iexact Hbufs
    · iexact Hreg
  · iexact Howes

/-- The launch deals every core its unscoped buffers at the launch memory, its register and an empty debt: that is
    the state at the first boundary. -/
theorem launch_state :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c
          ∗ prngReg c (ρ c) ∗ (BI.emp : sProp 𝕄))) ∗ levAts L lv)
      ⊢ (|={Set.univ}=> bigSep Finset.univ (atBoundary (W0 m ρ)) : sProp 𝕄) := by
  refine Pipeline.initEach L lv fun c => ?_
  rw [show unscopedBufs c (fun b => m ((c : Thread nD τ).loc b))
      = StableHlo.held (c : Thread nD τ) (Pipeline.ucRefs τ sig) (W0 m ρ c) from Pipeline.unscopedBufs_held c (W0 m ρ c)]
  iintro ⟨⟨Hbufs, -, Howes, -, Hreg, -⟩, -⟩
  imodintro
  isplitl [Hbufs]
  · iexact Hbufs
  isplitl [Hreg]
  · iexists _; iexact Hreg
  · iexists ∅; iexact Howes

/-- The last state against a final memory: every unscoped buffer reads as the last boundary's contents. -/
theorem final_read (c : Dev nD) (s' : Phys nD τ sig (Elt F)) :
    iprop(Tₙ m ρ c ∗ SI s') ⊢ (|={Set.univ}=> iprop(⌜endsAt m ρ c s'.mem⌝ ∗ SI s') : sProp 𝕄) := by
  iintro ⟨⟨Hbufs, -⟩, Hst⟩
  unfold StableHlo.held
  imodintro
  iapply (pointsTo_read_all (Pipeline.ucRefs τ sig) (fun b => (((c : Thread nD τ)).1, b)) (W5 m ρ c) s')
  isplitl [Hbufs]
  · iexact Hbufs
  · iexact Hst

/-- The launch's ghost element is the pipelines' own, and no core needs anything besides. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  have hemp : (BI.emp : sProp 𝕄) ⊢ bigSep Finset.univ (fun _ : Dev nD => (BI.emp : sProp 𝕄)) := by
    rw [BI.bigSep_emp_const]
  iintro Hown
  imodintro
  isplitl [Hown]
  · iapply hown; iexact Hown
  · iapply hemp; iempintro

set_option backward.isDefEq.respectTransparency.types false in
/-- Every weakly fair execution of @main terminates, nothing faulting; every unscoped buffer ends at the last
    boundary's contents, whatever is then concluded from that. -/
theorem run_of {Q : PUnit × MemSt nD τ sig (Elt F) → Prop}
    (hQ : ∀ s : MemSt nD τ sig (Elt F), (∀ c : Dev nD, endsAt m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := atBoundary (W0 m ρ)) (Tₙ := Tₙ m ρ) (hch := chain m ρ) (hinit := launch_state m ρ)
    (QY := endsAt m ρ) (hfin := final_read m ρ) (hQ := hQ)

/-- The run with the two result buffers at the last boundary's contents and the arguments as launched. -/
theorem run_values : θ_run defs (onTc (τ := τ) (main (F := F))) ⟨m, fun _ => 0, ρ⟩ (fun r => ∀ c : Dev nD,
      r.2.mem ((c.tc : Thread nD τ).loc main_v50) = W5 m ρ c (Proc.devRef .tc main_v50)
      ∧ r.2.mem ((c.tc : Thread nD τ).loc main_v51) = W5 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_of m ρ fun s hall c => ⟨hall c _ (mem_uc main_v50 (by decide)), hall c _ (mem_uc main_v51 (by decide)),
    (hall c _ (mem_uc main_arg0 (by decide))).trans (W5_main_arg0 m ρ c),
    (hall c _ (mem_uc main_arg1 (by decide))).trans (W5_main_arg1 m ρ c),
    (hall c _ (mem_uc main_arg2 (by decide))).trans (W5_main_arg2 m ρ c),
    (hall c _ (mem_uc main_arg3 (by decide))).trans (W5_main_arg3 m ρ c),
    (hall c _ (mem_uc main_arg4 (by decide))).trans (W5_main_arg4 m ρ c),
    (hall c _ (mem_uc main_arg5 (by decide))).trans (W5_main_arg5 m ρ c),
    (hall c _ (mem_uc main_arg6 (by decide))).trans (W5_main_arg6 m ρ c),
    (hall c _ (mem_uc main_arg7 (by decide))).trans (W5_main_arg7 m ρ c),
    (hall c _ (mem_uc main_arg8 (by decide))).trans (W5_main_arg8 m ρ c),
    (hall c _ (mem_uc main_arg9 (by decide))).trans (W5_main_arg9 m ρ c),
    (hall c _ (mem_uc main_arg10 (by decide))).trans (W5_main_arg10 m ρ c),
    (hall c _ (mem_uc main_arg11 (by decide))).trans (W5_main_arg11 m ρ c),
    (hall c _ (mem_uc main_arg12 (by decide))).trans (W5_main_arg12 m ρ c),
    (hall c _ (mem_uc main_arg13 (by decide))).trans (W5_main_arg13 m ρ c)⟩

end Cert.KernelIdeal.Run

end
-- ==== Proof.LibGraphLayer.lean ====
/-
  The mathematics of one graph-convolution layer, entry by entry, at the ideal values, and its two spellings.

  For a matrix x (M rows, K columns) and a column n (M rows, one column), `scaleRows x n` multiplies row a of x by the
  one entry n(a, 0). For a matrix y (M rows, K columns), a weight matrix W (K rows, N columns) and a row b (one row, N
  columns), `affine y W b` has at (a, q) the value (∑ c, y(a, c) · W(c, q)) + b(0, q). `ramp` is the maximum with the
  extended real the word of +0.0 denotes, entry by entry. The operations are kept in exactly this order and association:
  no identity of the extended reals is used, only the reading of each array operation at an index.

  Each of the three is read in two spellings. On a tile of rows: the column is broadcast across the tile's columns, the
  two factors of the product are rounded to bf16 (the identity at the ideal values) and multiplied into a zero
  accumulator, the bias is a [1, N] row broadcast down the tile, and the zero of the maximum is a scalar spread over the
  tile. On a whole array: the column is a vector of shape [M] broadcast first to [M, 1] and then across the columns, the
  product is the host's, the bias is a vector of shape [N] broadcast to one row and then down the rows, and the zero is
  a scalar broadcast to the array's shape. A vector reshaped to a column (or to a row) is the same column (row).

  Every entry of `scaleRows` and of `affine` reads one row of its first operand only, so a block of rows of the value is
  the same function of the same rows: that is what lets a program compute it block by block.

  `twoLayer` is the two-layer network: with an aggregation `agg` of node rows along the graph's edges left abstract,
  layer(x) = affine (scaleRows (agg (scaleRows x ns)) nd) W b, the first layer followed by `ramp`.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.GraphLayer

open Idealize.ShloMosaic Idealize.ShloMosaic.ValueIdx

variable {M K N : Nat}

/-- The extended real that the word of +0.0 denotes, kept as its word: both programs write the same word. -/
abbrev zeroWord : EReal := Ideal.ofBits .f32 0x00000000#32

/-! ## The functions -/

/-- Row a of x multiplied by the column's entry n(a, 0). -/
def scaleRows (x : FVec Ideal ⟨2, ![M, K]⟩ .f32) (n : FVec Ideal ⟨2, ![M, 1]⟩ .f32) : FVec Ideal ⟨2, ![M, K]⟩ .f32 :=
  fun i => x i * n (ix2 (show Fin M from i 0) (0 : Fin 1))

theorem scaleRows_apply (x : FVec Ideal ⟨2, ![M, K]⟩ .f32) (n : FVec Ideal ⟨2, ![M, 1]⟩ .f32) (a : Fin M) (q : Fin K) :
    scaleRows x n (ix2 a q) = x (ix2 a q) * n (ix2 a (0 : Fin 1)) := rfl

/-- The product with W plus the bias row, entry by entry. -/
def affine (y : FVec Ideal ⟨2, ![M, K]⟩ .f32) (W : FVec Ideal ⟨2, ![K, N]⟩ .f32) (b : FVec Ideal ⟨2, ![1, N]⟩ .f32) :
    FVec Ideal ⟨2, ![M, N]⟩ .f32 :=
  fun i => (∑ c : Fin K, y (ix2 (show Fin M from i 0) c) * W (ix2 c (show Fin N from i 1)))
    + b (ix2 (0 : Fin 1) (show Fin N from i 1))

theorem affine_apply (y : FVec Ideal ⟨2, ![M, K]⟩ .f32) (W : FVec Ideal ⟨2, ![K, N]⟩ .f32) (b : FVec Ideal ⟨2, ![1, N]⟩ .f32)
    (a : Fin M) (q : Fin N) :
    affine y W b (ix2 a q) = (∑ c : Fin K, y (ix2 a c) * W (ix2 c q)) + b (ix2 (0 : Fin 1) q) := rfl

/-- The maximum with zero, entry by entry. -/
def ramp (a : FVec Ideal ⟨2, ![M, K]⟩ .f32) : FVec Ideal ⟨2, ![M, K]⟩ .f32 := fun i => max (a i) zeroWord

theorem ramp_apply (a : FVec Ideal ⟨2, ![M, K]⟩ .f32) (i : (⟨2, ![M, K]⟩ : Shape).Idx) : ramp a i = max (a i) zeroWord := rfl

/-- The two-layer network over an abstract aggregation of node rows. -/
def twoLayer {D H E : Nat} (agg : FVec Ideal ⟨2, ![M, D]⟩ .f32 → FVec Ideal ⟨2, ![M, D]⟩ .f32)
    (agg' : FVec Ideal ⟨2, ![M, H]⟩ .f32 → FVec Ideal ⟨2, ![M, H]⟩ .f32)
    (x : FVec Ideal ⟨2, ![M, D]⟩ .f32) (ns nd : FVec Ideal ⟨2, ![M, 1]⟩ .f32)
    (W1 : FVec Ideal ⟨2, ![D, H]⟩ .f32) (b1 : FVec Ideal ⟨2, ![1, H]⟩ .f32)
    (W2 : FVec Ideal ⟨2, ![H, E]⟩ .f32) (b2 : FVec Ideal ⟨2, ![1, E]⟩ .f32) : FVec Ideal ⟨2, ![M, E]⟩ .f32 :=
  affine (scaleRows (agg' (scaleRows (ramp (affine (scaleRows (agg (scaleRows x ns)) nd) W1 b1)) ns)) nd) W2 b2

/-! ## A column broadcast across the columns, a vector made a column, a vector made a row -/

/-- An [M, 1] column broadcast to [M, K] reads, at (a, q), the column's entry at row a. -/
theorem broadcastTo_a1_ab_apply (v : (⟨2, ![M, 1]⟩ : Shape).Idx → EReal) (h : (⟨2, ![M, 1]⟩ : Shape).Broadcasts ⟨2, ![M, K]⟩)
    (a : Fin M) (q : Fin K) : broadcastTo ⟨2, ![M, K]⟩ v h (ix2 a q) = v (ix2 a (0 : Fin 1)) := by
  refine broadcastTo_apply v h (ix2 a q) (ix2 a (0 : Fin 1)) fun ax => ?_
  match ax with
  | ⟨0, _⟩ =>
    show a.val = if M = 1 then 0 else a.val
    split
    · have := a.isLt; omega
    · rfl
  | ⟨1, _⟩ =>
    show (0 : Nat) = if 1 = 1 then 0 else q.val
    rfl

/-- A vector of shape [M] reshaped to a column [M, 1] reads, at (a, 0), the vector's entry a. -/
theorem shapeCast_a_a1_apply (v : (⟨1, ![M]⟩ : Shape).Idx → EReal) (h : (⟨1, ![M]⟩ : Shape).ShapeCasts ⟨2, ![M, 1]⟩)
    (a : Fin M) (u : Fin 1) : shapeCast ⟨2, ![M, 1]⟩ v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

/-- A vector of shape [M] broadcast to a column [M, 1] along axis 0 reads, at (a, 0), the vector's entry a. -/
theorem broadcastInDim_a_a1_apply (v : (⟨1, ![M]⟩ : Shape).Idx → EReal)
    (h : (⟨1, ![M]⟩ : Shape).BroadcastsInDim ⟨2, ![M, 1]⟩ ![0]) (a : Fin M) (u : Fin 1) :
    broadcastInDim ⟨2, ![M, 1]⟩ ![0] h v (ix2 a u) = v (ix1 a) :=
  broadcastInDim_apply (![0] : Fin 1 → Fin 2) h v (ix2 a u) (ix1 a) (fun ax => by
    match ax with
    | ⟨0, _⟩ =>
      show a.val = if M = 1 then 0 else a.val
      split
      · have := a.isLt; omega
      · rfl)

/-- A vector of shape [N] broadcast to a row [1, N] along axis 1 reads, at (0, q), the vector's entry q. -/
theorem broadcastInDim_b_1b_apply (v : (⟨1, ![N]⟩ : Shape).Idx → EReal)
    (h : (⟨1, ![N]⟩ : Shape).BroadcastsInDim ⟨2, ![1, N]⟩ ![1]) (u : Fin 1) (q : Fin N) :
    broadcastInDim ⟨2, ![1, N]⟩ ![1] h v (ix2 u q) = v (ix1 q) :=
  broadcastInDim_apply (![1] : Fin 1 → Fin 2) h v (ix2 u q) (ix1 q) (fun ax => by
    match ax with
    | ⟨0, _⟩ =>
      show q.val = if N = 1 then 0 else q.val
      split
      · have := q.isLt; omega
      · rfl)

/-- A column [M, 1] broadcast to [M, K] along axes 0 and 1 reads, at (a, q), the column's entry at row a. -/
theorem broadcastInDim_a1_ab_apply (v : (⟨2, ![M, 1]⟩ : Shape).Idx → EReal)
    (h : (⟨2, ![M, 1]⟩ : Shape).BroadcastsInDim ⟨2, ![M, K]⟩ ![0, 1]) (a : Fin M) (q : Fin K) :
    broadcastInDim ⟨2, ![M, K]⟩ ![0, 1] h v (ix2 a q) = v (ix2 a (0 : Fin 1)) :=
  broadcastInDim_apply (![0, 1] : Fin 2 → Fin 2) h v (ix2 a q) (ix2 a (0 : Fin 1)) (fun ax => by
    match ax with
    | ⟨0, _⟩ =>
      show a.val = if M = 1 then 0 else a.val
      split
      · have := a.isLt; omega
      · rfl
    | ⟨1, _⟩ =>
      show (0 : Nat) = if 1 = 1 then 0 else q.val
      rfl)

/-- A row [1, N] broadcast to [M, N] along axes 0 and 1 reads, at (a, q), the row's entry at column q. -/
theorem broadcastInDim_1b_ab_apply (v : (⟨2, ![1, N]⟩ : Shape).Idx → EReal)
    (h : (⟨2, ![1, N]⟩ : Shape).BroadcastsInDim ⟨2, ![M, N]⟩ ![0, 1]) (a : Fin M) (q : Fin N) :
    broadcastInDim ⟨2, ![M, N]⟩ ![0, 1] h v (ix2 a q) = v (ix2 (0 : Fin 1) q) :=
  broadcastInDim_apply (![0, 1] : Fin 2 → Fin 2) h v (ix2 a q) (ix2 (0 : Fin 1) q) (fun ax => by
    match ax with
    | ⟨0, _⟩ =>
      show (0 : Nat) = if 1 = 1 then 0 else a.val
      rfl
    | ⟨1, _⟩ =>
      show q.val = if N = 1 then 0 else q.val
      split
      · have := q.isLt; omega
      · rfl)

/-! ## The product into a zero accumulator, at an index -/

/-- The plain product of an M×K by a K×N matrix into a zero accumulator reads, at (a, b), the sum over the contracted
    coordinate of the products of the entries. -/
theorem matmul_plain_zero_apply {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-! ## The tile's spelling -/

/-- Rows scaled on a tile: the column broadcast across the tile's columns, then the product. -/
theorem tile_scale (h : (⟨2, ![M, K]⟩ : Shape).ShapeCasts ⟨2, ![M, K]⟩) (h' : (⟨2, ![M, 1]⟩ : Shape).ShapeCasts ⟨2, ![M, 1]⟩)
    (hb : (⟨2, ![M, 1]⟩ : Shape).Broadcasts ⟨2, ![M, K]⟩)
    (x : FVec Ideal ⟨2, ![M, K]⟩ .f32) (n : FVec Ideal ⟨2, ![M, 1]⟩ .f32) :
    mulf (shapeCast ⟨2, ![M, K]⟩ x h) (broadcastTo ⟨2, ![M, K]⟩ (shapeCast ⟨2, ![M, 1]⟩ n h') hb) = scaleRows x n := by
  rw [shapeCast_self x h, shapeCast_self n h']
  funext j
  obtain ⟨a, q, rfl⟩ : ∃ (a : Fin M) (q : Fin K), j = ix2 a q := ⟨j 0, j 1, eq_ix2 j⟩
  rw [scaleRows_apply, mulf_apply, broadcastTo_a1_ab_apply n hb]

/-- The product with the weights and the bias row on a tile: the two factors rounded to bf16 (the identity at the
    ideal values) and multiplied into a zero accumulator, then the bias row broadcast down the tile and added. -/
theorem tile_affine (D : DotDims ⟨2, ![M, K]⟩ ⟨2, ![K, N]⟩ ⟨2, ![M, N]⟩) (hD : D = DotDims.plain M K N)
    (hbits : FTy.bits .bf16 < FTy.bits .f32)
    (h1 : (⟨2, ![1, N]⟩ : Shape).ShapeCasts ⟨2, ![1, N]⟩) (hb : (⟨2, ![1, N]⟩ : Shape).Broadcasts ⟨2, ![M, N]⟩)
    (y : FVec Ideal ⟨2, ![M, K]⟩ .f32) (W : FVec Ideal ⟨2, ![K, N]⟩ .f32) (b : FVec Ideal ⟨2, ![1, N]⟩ .f32) :
    addf (matmul D none (truncf .bf16 y hbits) (truncf .bf16 W hbits) (constant (F := Ideal) ⟨2, ![M, N]⟩ .f32 0x00000000#32))
        (broadcastTo ⟨2, ![M, N]⟩ (shapeCast ⟨2, ![1, N]⟩ b h1) hb)
      = affine y W b := by
  subst hD
  rw [shapeCast_self b h1]
  funext j
  obtain ⟨a, q, rfl⟩ : ∃ (a : Fin M) (q : Fin N), j = ix2 a q := ⟨j 0, j 1, eq_ix2 j⟩
  rw [affine_apply, addf_apply, matmul_plain_zero_apply, broadcastTo_1b_ab_apply b hb]
  rfl

/-- The maximum of a tile with a scalar zero word spread over the tile. -/
theorem tile_ramp (a : FVec Ideal ⟨2, ![M, K]⟩ .f32) :
    maximumf a (broadcast ⟨2, ![M, K]⟩ (Scalar.ofBits (F := Ideal) .f32 0x00000000#32)) = ramp a := by
  funext i
  rw [ramp_apply, maximumf_apply, broadcast_apply]
  rfl

/-! ## The whole array's spelling -/

/-- Rows scaled on the whole array: the vector made a column, the column broadcast across the columns, the product;
    the column is the vector reshaped. -/
theorem host_scale (h1 : (⟨1, ![M]⟩ : Shape).BroadcastsInDim ⟨2, ![M, 1]⟩ ![0])
    (h2 : (⟨2, ![M, 1]⟩ : Shape).BroadcastsInDim ⟨2, ![M, K]⟩ ![0, 1]) (hs : (⟨1, ![M]⟩ : Shape).ShapeCasts ⟨2, ![M, 1]⟩)
    (X : FVec Ideal ⟨2, ![M, K]⟩ .f32) (nv : FVec Ideal ⟨1, ![M]⟩ .f32) :
    mulf X (broadcastInDim ⟨2, ![M, K]⟩ ![0, 1] h2 (broadcastInDim ⟨2, ![M, 1]⟩ ![0] h1 nv))
      = scaleRows X (shapeCast ⟨2, ![M, 1]⟩ nv hs) := by
  funext j
  obtain ⟨a, q, rfl⟩ : ∃ (a : Fin M) (q : Fin K), j = ix2 a q := ⟨j 0, j 1, eq_ix2 j⟩
  rw [scaleRows_apply, mulf_apply, broadcastInDim_a1_ab_apply _ h2, broadcastInDim_a_a1_apply nv h1,
    shapeCast_a_a1_apply nv hs]

/-- The product with the weights and the bias on the whole array: the host's product, then the bias vector made a row,
    broadcast down the rows and added; the row is the vector reshaped. -/
theorem host_affine (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1]) (hs : (⟨1, ![N]⟩ : Shape).ShapeCasts ⟨2, ![1, N]⟩)
    (Y : FVec Ideal ⟨2, ![M, K]⟩ .f32) (W : FVec Ideal ⟨2, ![K, N]⟩ .f32) (bv : FVec Ideal ⟨1, ![N]⟩ .f32) :
    addf (Host.dotGeneral D none Y W) (broadcastInDim ⟨2, ![M, N]⟩ ![0, 1] h2 (broadcastInDim ⟨2, ![1, N]⟩ ![1] h1 bv))
      = affine Y W (shapeCast ⟨2, ![1, N]⟩ bv hs) := by
  subst hD
  funext j
  obtain ⟨a, q, rfl⟩ : ∃ (a : Fin M) (q : Fin N), j = ix2 a q := ⟨j 0, j 1, eq_ix2 j⟩
  rw [affine_apply, addf_apply, StackMember.dotGeneral_plain_apply, broadcastInDim_1b_ab_apply _ h2,
    broadcastInDim_b_1b_apply bv h1, shapeCast_a_1a_apply bv hs]

/-- The maximum of the array with the scalar zero word broadcast to the array's shape. -/
theorem host_ramp (h0 : (⟨0, ![]⟩ : Shape).BroadcastsInDim ⟨2, ![M, K]⟩ ![]) (a : FVec Ideal ⟨2, ![M, K]⟩ .f32) :
    maximumf a (broadcastInDim ⟨2, ![M, K]⟩ ![] h0 (constant (F := Ideal) ⟨0, ![]⟩ .f32 0x00000000#32)) = ramp a := by
  funext j
  obtain ⟨p, q, rfl⟩ : ∃ (p : Fin M) (q : Fin K), j = ix2 p q := ⟨j 0, j 1, eq_ix2 j⟩
  rw [ramp_apply, maximumf_apply,
    broadcastInDim_apply (![] : Fin 0 → Fin 2) h0 _ (ix2 p q) ix0 (fun ax => ax.elim0)]
  rfl

/-! ## Row by row -/

/-- An entry of the scaled rows reads one entry of x and one of the column: if the block's entry (a, q) is X's entry
    (A, q) and the block column's entry a is the column's entry A, the two values agree. -/
theorem scaleRows_rows {R : Nat} (X : FVec Ideal ⟨2, ![M, K]⟩ .f32) (C : FVec Ideal ⟨2, ![M, 1]⟩ .f32)
    (xb : FVec Ideal ⟨2, ![R, K]⟩ .f32) (cb : FVec Ideal ⟨2, ![R, 1]⟩ .f32) (a : Fin R) (A : Fin M) (q : Fin K)
    (hx : xb (ix2 a q) = X (ix2 A q)) (hc : cb (ix2 a (0 : Fin 1)) = C (ix2 A (0 : Fin 1))) :
    scaleRows xb cb (ix2 a q) = scaleRows X C (ix2 A q) := by
  rw [scaleRows_apply, scaleRows_apply, hx, hc]

/-- An entry of the affine map reads one row of its first operand: if row a of the block is row A of Y, the two values
    agree. -/
theorem affine_rows {R : Nat} (Y : FVec Ideal ⟨2, ![M, K]⟩ .f32) (yb : FVec Ideal ⟨2, ![R, K]⟩ .f32)
    (W : FVec Ideal ⟨2, ![K, N]⟩ .f32) (b : FVec Ideal ⟨2, ![1, N]⟩ .f32) (a : Fin R) (A : Fin M) (q : Fin N)
    (hy : ∀ c : Fin K, yb (ix2 a c) = Y (ix2 A c)) :
    affine yb W b (ix2 a q) = affine Y W b (ix2 A q) := by
  have hs : (∑ c : Fin K, yb (ix2 a c) * W (ix2 c q)) = ∑ c : Fin K, Y (ix2 A c) * W (ix2 c q) :=
    Finset.sum_congr rfl fun c _ => by rw [hy c]
  rw [affine_apply, affine_apply, hs]

end Cert.GraphLayer

end
-- ==== Proof.LibReduceRead.lean ====
/-
  Reductions of a matrix along one axis, and the column forms of reshape and broadcast, read at an entry.

  For a matrix src of extents [a, b]:

    sum over axis 0, at k          Σ_i src (i, k)                       (a column sum)
    sum over axis 1, at r          Σ_j src (r, j)                       (a row sum)
    maximum over axis 1, at r      sup_j src (r, j)                     (a row maximum: the fold of max from −∞,
                                                                          and −∞ is the bottom of the extended reals,
                                                                          so the fold is the finite supremum)

  The index of the matrix that lies over a reduced index with a given coordinate on the dropped axis is the pair of
  the two coordinates, in the matrix's order. A vector of extent a reshaped to the column [a, 1] reads its own entry,
  and a column [a, 1] broadcast to [a, b] reads the column's entry of the same row.
-/
import Idealize.ShloMosaic.PureOps.Ideal.Laws
import Idealize.ShloMosaic.Lib.ValueIdx
import Idealize.ShloMosaic.Lib.Pipeline.Value
import Idealize.ShloMosaic.Lib.ValueLayout

noncomputable section

namespace Cert.Pay

open Idealize.ShloMosaic Idealize.ShloMosaic.ValueIdx

/-- The float word 0xFF800000 (−∞) denotes the bottom of the extended reals. -/
theorem ofBits_neg_inf : Ideal.ofBits .f32 0xFF800000#32 = ⊥ := by
  simp [Ideal.ofBits, Ideal.ieee]

/-- Over the reduced index k of a reduction along axis 0, the matrix index with coordinate i on that axis is (i, k). -/
theorem lift_axis0 {a b : ℕ} (h : (⟨2, ![a, b]⟩ : Shape).Reduces [0] ⟨1, ![b]⟩) (k : Fin b) (i : Fin a) :
    h.lift (ix1 k) i = ix2 i k :=
  funext fun c => Fin.ext (by match c with | ⟨0, _⟩ => rfl | ⟨1, _⟩ => rfl)

/-- Over the reduced index r of a reduction along axis 1, the matrix index with coordinate j on that axis is (r, j). -/
theorem lift_axis1 {a b : ℕ} (h : (⟨2, ![a, b]⟩ : Shape).Reduces [1] ⟨1, ![a]⟩) (r : Fin a) (j : Fin b) :
    h.lift (ix1 r) j = ix2 r j :=
  funext fun c => Fin.ext (by match c with | ⟨0, _⟩ => rfl | ⟨1, _⟩ => rfl)

/-- A sum over the rows of a matrix, at column k. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (k : Fin b) :
    multiReduction (F := Ideal) .add [0] ⟨1, ![b]⟩ src 0x00000000#32 h hφ hacc (ix1 k) = ∑ i : Fin a, src (ix2 i k) :=
  (Ideal.multiReduction_add_single src 0x00000000#32 h hφ hacc (ix1 k)).trans
    (Finset.sum_congr rfl fun i _ => congrArg src (lift_axis0 h k i))

/-- A sum along the rows of a matrix, at row r. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ j : Fin b, src (ix2 r j) :=
  (Ideal.multiReduction_add_single src 0x00000000#32 h hφ hacc (ix1 r)).trans
    (Finset.sum_congr rfl fun j _ => congrArg src (lift_axis1 h r j))

/-- The fold of max from the bottom over a finite index set is the finite supremum. -/
theorem fold_max_bot_eq_sup {ι : Type} [Fintype ι] (g : ι → EReal) :
    (Finset.univ : Finset ι).fold max ⊥ g = Finset.univ.sup g := rfl

/-- A maximum along the rows of a matrix from −∞, at row r. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction (F := Ideal) .maximumf [1] ⟨1, ![a]⟩ src 0xFF800000#32 h hφ hacc (ix1 r)
      = Finset.univ.sup fun j : Fin b => src (ix2 r j) := by
  have e : (fun j : Fin b => src (h.lift (ix1 r) j)) = fun j : Fin b => src (ix2 r j) :=
    funext fun j => congrArg src (lift_axis1 h r j)
  exact (Ideal.multiReduction_maximumf_single src 0xFF800000#32 h hφ hacc (ix1 r)).trans
    ((congrArg₂ (fun z (g : Fin b → EReal) => (Finset.univ : Finset (Fin b)).fold max z g) ofBits_neg_inf e).trans
      (fold_max_bot_eq_sup _))

variable {α : Type}

/-- A vector of extent a reshaped to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Pay

end
-- ==== Proof.LibEdgeNode.lean ====
/-
  One message-passing layer on a graph with node features and node coordinates, entry by entry, at the ideal values.

  For an edge e with end nodes row(e), col(e): hr and hc are the feature rows of the two end nodes (K columns each),
  rel is the difference of their coordinate rows (J columns). With the column sq(e) = ∑ k, rel(e, k) · rel(e, k):

    hidden3 (e, q) = ((∑ c, hr(e, c) · Wa(c, q)) + (∑ c, hc(e, c) · Wb(c, q))) + sq(e) · wd(0, q)) + b(0, q)
    messages       = affine (ramp hidden3) W2 b2
    coordTerm(e,k) = (∑ c, ramp (affine messages Wc1 bc1)(e, c) · wc2(c, 0)) · rel(e, k)

  and for a node n with its own feature row h and the row agg of summed incoming messages:

    hidden2 (n, q) = ((∑ c, h(n, c) · Wa(c, q)) + (∑ c, agg(n, c) · Wb(c, q))) + b(0, q)
    nodeOut        = affine (ramp hidden2) W2 b2

  (affine and ramp are the matrix-product-plus-bias-row and the maximum with zero of the graph-layer lemmas.)
  Every entry of each of these reads one row of the edge (node) operands only, so a block of consecutive rows of the
  value is the same function of the same rows.

  The one law that is not a reading of an operation at an index: a sum over K + K + 1 (or K + K) consecutive
  positions is the sum over the first K, plus the sum over the next K, plus the last term. It holds in every additive
  commutative monoid, so on the extended reals it needs no finiteness.
-/
import proofs.«133342_j5832565588032_1_alg».proof.Proof.LibGraphLayer
import proofs.«133342_j5832565588032_1_alg».proof.Proof.LibReduceRead

noncomputable section

namespace Cert.EdgeNode

open Idealize.ShloMosaic Idealize.ShloMosaic.ValueIdx Cert.GraphLayer

/-! ## Splitting a sum over consecutive positions -/

/-- A sum over K + K + 1 positions: the first K, the next K, the last one. -/
theorem sum_three_parts {A : Type} [AddCommMonoid A] (K : Nat) (f : Fin (K + K + 1) → A) :
    ∑ k, f k = ((∑ i : Fin K, f ⟨i.val, by omega⟩) + ∑ i : Fin K, f ⟨K + i.val, by omega⟩) + f ⟨K + K, by omega⟩ := by
  rw [Fin.sum_univ_castSucc, Fin.sum_univ_add]
  rfl

/-- A sum over K + K positions: the first K, the next K. -/
theorem sum_two_parts {A : Type} [AddCommMonoid A] (K : Nat) (f : Fin (K + K) → A) :
    ∑ k, f k = (∑ i : Fin K, f ⟨i.val, by omega⟩) + ∑ i : Fin K, f ⟨K + i.val, by omega⟩ := by
  rw [Fin.sum_univ_add]
  rfl

variable {M K N J : Nat}

/-! ## The functions -/

/-- The column of squared row lengths: at row a, ∑ k, rel(a, k) · rel(a, k). -/
def sqCol (rel : FVec Ideal ⟨2, ![M, J]⟩ .f32) : FVec Ideal ⟨2, ![M, 1]⟩ .f32 :=
  fun i => ∑ k : Fin J, rel (ix2 (show Fin M from i 0) k) * rel (ix2 (show Fin M from i 0) k)

theorem sqCol_apply (rel : FVec Ideal ⟨2, ![M, J]⟩ .f32) (a : Fin M) (u : Fin 1) :
    sqCol rel (ix2 a u) = ∑ k : Fin J, rel (ix2 a k) * rel (ix2 a k) := rfl

/-- The product with W, entry by entry (no bias). -/
def lin (y : FVec Ideal ⟨2, ![M, K]⟩ .f32) (W : FVec Ideal ⟨2, ![K, N]⟩ .f32) : FVec Ideal ⟨2, ![M, N]⟩ .f32 :=
  fun i => ∑ c : Fin K, y (ix2 (show Fin M from i 0) c) * W (ix2 c (show Fin N from i 1))

theorem lin_apply (y : FVec Ideal ⟨2, ![M, K]⟩ .f32) (W : FVec Ideal ⟨2, ![K, N]⟩ .f32) (a : Fin M) (q : Fin N) :
    lin y W (ix2 a q) = ∑ c : Fin K, y (ix2 a c) * W (ix2 c q) := rfl

/-- The first edge layer before the ramp: two products, the squared length times a weight row, the bias row. -/
def hidden3 (hr hc : FVec Ideal ⟨2, ![M, K]⟩ .f32) (d : FVec Ideal ⟨2, ![M, 1]⟩ .f32)
    (Wa Wb : FVec Ideal ⟨2, ![K, N]⟩ .f32) (wd b : FVec Ideal ⟨2, ![1, N]⟩ .f32) : FVec Ideal ⟨2, ![M, N]⟩ .f32 :=
  fun i => (((∑ c : Fin K, hr (ix2 (show Fin M from i 0) c) * Wa (ix2 c (show Fin N from i 1)))
      + (∑ c : Fin K, hc (ix2 (show Fin M from i 0) c) * Wb (ix2 c (show Fin N from i 1))))
      + d (ix2 (show Fin M from i 0) (0 : Fin 1)) * wd (ix2 (0 : Fin 1) (show Fin N from i 1)))
      + b (ix2 (0 : Fin 1) (show Fin N from i 1))

theorem hidden3_apply (hr hc : FVec Ideal ⟨2, ![M, K]⟩ .f32) (d : FVec Ideal ⟨2, ![M, 1]⟩ .f32)
    (Wa Wb : FVec Ideal ⟨2, ![K, N]⟩ .f32) (wd b : FVec Ideal ⟨2, ![1, N]⟩ .f32) (a : Fin M) (q : Fin N) :
    hidden3 hr hc d Wa Wb wd b (ix2 a q)
      = (((∑ c : Fin K, hr (ix2 a c) * Wa (ix2 c q)) + (∑ c : Fin K, hc (ix2 a c) * Wb (ix2 c q)))
          + d (ix2 a (0 : Fin 1)) * wd (ix2 (0 : Fin 1) q)) + b (ix2 (0 : Fin 1) q) := rfl

/-- The first node layer before the ramp: two products and the bias row. -/
def hidden2 (h agg : FVec Ideal ⟨2, ![M, K]⟩ .f32) (Wa Wb : FVec Ideal ⟨2, ![K, N]⟩ .f32)
    (b : FVec Ideal ⟨2, ![1, N]⟩ .f32) : FVec Ideal ⟨2, ![M, N]⟩ .f32 :=
  fun i => ((∑ c : Fin K, h (ix2 (show Fin M from i 0) c) * Wa (ix2 c (show Fin N from i 1)))
      + (∑ c : Fin K, agg (ix2 (show Fin M from i 0) c) * Wb (ix2 c (show Fin N from i 1))))
      + b (ix2 (0 : Fin 1) (show Fin N from i 1))

theorem hidden2_apply (h agg : FVec Ideal ⟨2, ![M, K]⟩ .f32) (Wa Wb : FVec Ideal ⟨2, ![K, N]⟩ .f32)
    (b : FVec Ideal ⟨2, ![1, N]⟩ .f32) (a : Fin M) (q : Fin N) :
    hidden2 h agg Wa Wb b (ix2 a q)
      = ((∑ c : Fin K, h (ix2 a c) * Wa (ix2 c q)) + (∑ c : Fin K, agg (ix2 a c) * Wb (ix2 c q)))
          + b (ix2 (0 : Fin 1) q) := rfl

/-- Row a of rel multiplied, on the left, by the column's entry cw(a, 0). -/
def colScale (cw : FVec Ideal ⟨2, ![M, 1]⟩ .f32) (rel : FVec Ideal ⟨2, ![M, J]⟩ .f32) : FVec Ideal ⟨2, ![M, J]⟩ .f32 :=
  fun i => cw (ix2 (show Fin M from i 0) (0 : Fin 1)) * rel i

theorem colScale_apply (cw : FVec Ideal ⟨2, ![M, 1]⟩ .f32) (rel : FVec Ideal ⟨2, ![M, J]⟩ .f32) (a : Fin M) (k : Fin J) :
    colScale cw rel (ix2 a k) = cw (ix2 a (0 : Fin 1)) * rel (ix2 a k) := rfl

/-- The message of every edge. -/
def messages (hr hc : FVec Ideal ⟨2, ![M, K]⟩ .f32) (rel : FVec Ideal ⟨2, ![M, J]⟩ .f32)
    (Wa Wb : FVec Ideal ⟨2, ![K, N]⟩ .f32) (wd b1 : FVec Ideal ⟨2, ![1, N]⟩ .f32)
    (W2 : FVec Ideal ⟨2, ![N, N]⟩ .f32) (b2 : FVec Ideal ⟨2, ![1, N]⟩ .f32) : FVec Ideal ⟨2, ![M, N]⟩ .f32 :=
  affine (ramp (hidden3 hr hc (sqCol rel) Wa Wb wd b1)) W2 b2

/-- The coordinate term of every edge, from its message. -/
def coordTerm (msg : FVec Ideal ⟨2, ![M, N]⟩ .f32) (rel : FVec Ideal ⟨2, ![M, J]⟩ .f32)
    (Wc1 : FVec Ideal ⟨2, ![N, N]⟩ .f32) (bc1 : FVec Ideal ⟨2, ![1, N]⟩ .f32) (wc2 : FVec Ideal ⟨2, ![N, 1]⟩ .f32) :
    FVec Ideal ⟨2, ![M, J]⟩ .f32 :=
  colScale (lin (ramp (affine msg Wc1 bc1)) wc2) rel

/-- The new features of every node. -/
def nodeOut (h agg : FVec Ideal ⟨2, ![M, K]⟩ .f32) (Wa Wb : FVec Ideal ⟨2, ![K, N]⟩ .f32)
    (b1 : FVec Ideal ⟨2, ![1, N]⟩ .f32) (W2 : FVec Ideal ⟨2, ![N, N]⟩ .f32) (b2 : FVec Ideal ⟨2, ![1, N]⟩ .f32) :
    FVec Ideal ⟨2, ![M, N]⟩ .f32 :=
  affine (ramp (hidden2 h agg Wa Wb b1)) W2 b2

/-! ## Row by row -/

/-- Splitting an index of a rank-two array whose second coordinate is known. -/
theorem idx_rows {R : Nat} (j : (⟨2, ![R, N]⟩ : Shape).Idx) (i : (⟨2, ![M, N]⟩ : Shape).Idx)
    (hq : (i 1).val = (j 1).val) :
    ∃ (a : Fin R) (A : Fin M) (q : Fin N), j = ix2 a q ∧ i = ix2 A q := by
  have e : (i 1 : Fin N) = (j 1 : Fin N) := Fin.ext hq
  exact ⟨j 0, i 0, j 1, eq_ix2 j, (eq_ix2 i).trans (congrArg (fun q : Fin N => ix2 (i 0 : Fin M) q) e)⟩

/-- An entry of the message reads row a of the three edge operands only. -/
theorem messages_rows {R : Nat} (HR HC : FVec Ideal ⟨2, ![M, K]⟩ .f32) (REL : FVec Ideal ⟨2, ![M, J]⟩ .f32)
    (hrb hcb : FVec Ideal ⟨2, ![R, K]⟩ .f32) (relb : FVec Ideal ⟨2, ![R, J]⟩ .f32)
    (Wa Wb : FVec Ideal ⟨2, ![K, N]⟩ .f32) (wd b1 : FVec Ideal ⟨2, ![1, N]⟩ .f32)
    (W2 : FVec Ideal ⟨2, ![N, N]⟩ .f32) (b2 : FVec Ideal ⟨2, ![1, N]⟩ .f32) (a : Fin R) (A : Fin M) (q : Fin N)
    (h1 : ∀ c : Fin K, hrb (ix2 a c) = HR (ix2 A c)) (h2 : ∀ c : Fin K, hcb (ix2 a c) = HC (ix2 A c))
    (h3 : ∀ k : Fin J, relb (ix2 a k) = REL (ix2 A k)) :
    messages hrb hcb relb Wa Wb wd b1 W2 b2 (ix2 a q) = messages HR HC REL Wa Wb wd b1 W2 b2 (ix2 A q) := by
  unfold messages
  refine affine_rows _ _ W2 b2 a A q fun c => ?_
  rw [ramp_apply, ramp_apply, hidden3_apply, hidden3_apply, sqCol_apply, sqCol_apply]
  simp only [h1, h2, h3]

/-- An entry of the coordinate term reads row a of the message and of rel only. -/
theorem coordTerm_rows {R : Nat} (MSG : FVec Ideal ⟨2, ![M, N]⟩ .f32) (REL : FVec Ideal ⟨2, ![M, J]⟩ .f32)
    (msgb : FVec Ideal ⟨2, ![R, N]⟩ .f32) (relb : FVec Ideal ⟨2, ![R, J]⟩ .f32)
    (Wc1 : FVec Ideal ⟨2, ![N, N]⟩ .f32) (bc1 : FVec Ideal ⟨2, ![1, N]⟩ .f32) (wc2 : FVec Ideal ⟨2, ![N, 1]⟩ .f32)
    (a : Fin R) (A : Fin M) (k : Fin J)
    (h1 : ∀ c : Fin N, msgb (ix2 a c) = MSG (ix2 A c)) (h3 : ∀ k : Fin J, relb (ix2 a k) = REL (ix2 A k)) :
    coordTerm msgb relb Wc1 bc1 wc2 (ix2 a k) = coordTerm MSG REL Wc1 bc1 wc2 (ix2 A k) := by
  unfold coordTerm
  rw [colScale_apply, colScale_apply, lin_apply, lin_apply, h3 k]
  have e : ∀ c : Fin N, ramp (affine msgb Wc1 bc1) (ix2 a c) = ramp (affine MSG Wc1 bc1) (ix2 A c) := fun c => by
    rw [ramp_apply, ramp_apply, affine_rows MSG msgb Wc1 bc1 a A c h1]
  simp only [e]

/-- An entry of the new node features reads row a of the two node operands only. -/
theorem nodeOut_rows {R : Nat} (H AGG : FVec Ideal ⟨2, ![M, K]⟩ .f32) (hb aggb : FVec Ideal ⟨2, ![R, K]⟩ .f32)
    (Wa Wb : FVec Ideal ⟨2, ![K, N]⟩ .f32) (b1 : FVec Ideal ⟨2, ![1, N]⟩ .f32)
    (W2 : FVec Ideal ⟨2, ![N, N]⟩ .f32) (b2 : FVec Ideal ⟨2, ![1, N]⟩ .f32) (a : Fin R) (A : Fin M) (q : Fin N)
    (h1 : ∀ c : Fin K, hb (ix2 a c) = H (ix2 A c)) (h2 : ∀ c : Fin K, aggb (ix2 a c) = AGG (ix2 A c)) :
    nodeOut hb aggb Wa Wb b1 W2 b2 (ix2 a q) = nodeOut H AGG Wa Wb b1 W2 b2 (ix2 A q) := by
  unfold nodeOut
  refine affine_rows _ _ W2 b2 a A q fun c => ?_
  rw [ramp_apply, ramp_apply, hidden2_apply, hidden2_apply]
  simp only [h1, h2]

/-! ## The same, at indices given whole

A block index j and an array index i with the same column: the hypotheses speak of row j 0 of the block and row
i 0 of the array. -/

theorem messages_at {R : Nat} (HR HC : FVec Ideal ⟨2, ![M, K]⟩ .f32) (REL : FVec Ideal ⟨2, ![M, J]⟩ .f32)
    (hrb hcb : FVec Ideal ⟨2, ![R, K]⟩ .f32) (relb : FVec Ideal ⟨2, ![R, J]⟩ .f32)
    (Wa Wb : FVec Ideal ⟨2, ![K, N]⟩ .f32) (wd b1 : FVec Ideal ⟨2, ![1, N]⟩ .f32)
    (W2 : FVec Ideal ⟨2, ![N, N]⟩ .f32) (b2 : FVec Ideal ⟨2, ![1, N]⟩ .f32)
    (j : (⟨2, ![R, N]⟩ : Shape).Idx) (i : (⟨2, ![M, N]⟩ : Shape).Idx) (hq : (i 1).val = (j 1).val)
    (h1 : ∀ c : Fin K, hrb (ix2 (show Fin R from j 0) c) = HR (ix2 (show Fin M from i 0) c))
    (h2 : ∀ c : Fin K, hcb (ix2 (show Fin R from j 0) c) = HC (ix2 (show Fin M from i 0) c))
    (h3 : ∀ k : Fin J, relb (ix2 (show Fin R from j 0) k) = REL (ix2 (show Fin M from i 0) k)) :
    messages hrb hcb relb Wa Wb wd b1 W2 b2 j = messages HR HC REL Wa Wb wd b1 W2 b2 i := by
  obtain ⟨a, A, q, rfl, rfl⟩ := idx_rows j i hq
  exact messages_rows HR HC REL hrb hcb relb Wa Wb wd b1 W2 b2 a A q h1 h2 h3

theorem coordTerm_at {R : Nat} (MSG : FVec Ideal ⟨2, ![M, N]⟩ .f32) (REL : FVec Ideal ⟨2, ![M, J]⟩ .f32)
    (msgb : FVec Ideal ⟨2, ![R, N]⟩ .f32) (relb : FVec Ideal ⟨2, ![R, J]⟩ .f32)
    (Wc1 : FVec Ideal ⟨2, ![N, N]⟩ .f32) (bc1 : FVec Ideal ⟨2, ![1, N]⟩ .f32) (wc2 : FVec Ideal ⟨2, ![N, 1]⟩ .f32)
    (j : (⟨2, ![R, J]⟩ : Shape).Idx) (i : (⟨2, ![M, J]⟩ : Shape).Idx) (hq : (i 1).val = (j 1).val)
    (h1 : ∀ c : Fin N, msgb (ix2 (show Fin R from j 0) c) = MSG (ix2 (show Fin M from i 0) c))
    (h3 : ∀ k : Fin J, relb (ix2 (show Fin R from j 0) k) = REL (ix2 (show Fin M from i 0) k)) :
    coordTerm msgb relb Wc1 bc1 wc2 j = coordTerm MSG REL Wc1 bc1 wc2 i := by
  obtain ⟨a, A, k, rfl, rfl⟩ := idx_rows j i hq
  exact coordTerm_rows MSG REL msgb relb Wc1 bc1 wc2 a A k h1 h3

theorem nodeOut_at {R : Nat} (H AGG : FVec Ideal ⟨2, ![M, K]⟩ .f32) (hb aggb : FVec Ideal ⟨2, ![R, K]⟩ .f32)
    (Wa Wb : FVec Ideal ⟨2, ![K, N]⟩ .f32) (b1 : FVec Ideal ⟨2, ![1, N]⟩ .f32)
    (W2 : FVec Ideal ⟨2, ![N, N]⟩ .f32) (b2 : FVec Ideal ⟨2, ![1, N]⟩ .f32)
    (j : (⟨2, ![R, N]⟩ : Shape).Idx) (i : (⟨2, ![M, N]⟩ : Shape).Idx) (hq : (i 1).val = (j 1).val)
    (h1 : ∀ c : Fin K, hb (ix2 (show Fin R from j 0) c) = H (ix2 (show Fin M from i 0) c))
    (h2 : ∀ c : Fin K, aggb (ix2 (show Fin R from j 0) c) = AGG (ix2 (show Fin M from i 0) c)) :
    nodeOut hb aggb Wa Wb b1 W2 b2 j = nodeOut H AGG Wa Wb b1 W2 b2 i := by
  obtain ⟨a, A, q, rfl, rfl⟩ := idx_rows j i hq
  exact nodeOut_rows H AGG hb aggb Wa Wb b1 W2 b2 a A q h1 h2

end Cert.EdgeNode

end
-- ==== Proof.LibLayerSpell.lean ====
/-
  The layer's functions in the two spellings the programs use, and the split of a product with a stacked weight matrix.

  On a tile of rows the operands of a product are rounded to bf16 (the identity at the ideal values) and multiplied into
  a zero accumulator; a [1, N] row is broadcast down the tile; an [M, 1] column is broadcast across it; the squared
  length column is a sum along axis 1 reshaped from [M] to [M, 1]. On a whole array the product is the host's; the
  column is a vector broadcast to [M, 1] and then across the columns.

  The split: the rows (a, ·) of three arrays laid side by side (K, K and 1 columns) times a weight matrix of
  K + K + 1 rows is the sum of the three products with the weight matrix's three bands of rows — the sum over
  K + K + 1 consecutive positions taken in three parts. Likewise for two arrays of K columns and K + K rows.
-/
import proofs.«133342_j5832565588032_1_alg».proof.Proof.LibEdgeNode

noncomputable section

namespace Cert.EdgeNode

open Idealize.ShloMosaic Idealize.ShloMosaic.ValueIdx Cert.GraphLayer

variable {M K N J : Nat}

/-! ## On a tile -/

/-- A product of two operands rounded to bf16 into a zero accumulator. -/
theorem tile_lin (D : DotDims ⟨2, ![M, K]⟩ ⟨2, ![K, N]⟩ ⟨2, ![M, N]⟩) (hD : D = DotDims.plain M K N)
    (hbits : FTy.bits .bf16 < FTy.bits .f32)
    (y : FVec Ideal ⟨2, ![M, K]⟩ .f32) (W : FVec Ideal ⟨2, ![K, N]⟩ .f32) :
    matmul D none (truncf .bf16 y hbits) (truncf .bf16 W hbits) (constant (F := Ideal) ⟨2, ![M, N]⟩ .f32 0x00000000#32)
      = lin y W := by
  subst hD
  funext j
  obtain ⟨a, q, rfl⟩ : ∃ (a : Fin M) (q : Fin N), j = ix2 a q := ⟨j 0, j 1, eq_ix2 j⟩
  rw [lin_apply, matmul_plain_zero_apply]
  rfl

/-- The product plus the bias row broadcast down the tile. -/
theorem tile_affine0 (D : DotDims ⟨2, ![M, K]⟩ ⟨2, ![K, N]⟩ ⟨2, ![M, N]⟩) (hD : D = DotDims.plain M K N)
    (hbits : FTy.bits .bf16 < FTy.bits .f32) (hb : (⟨2, ![1, N]⟩ : Shape).Broadcasts ⟨2, ![M, N]⟩)
    (y : FVec Ideal ⟨2, ![M, K]⟩ .f32) (W : FVec Ideal ⟨2, ![K, N]⟩ .f32) (b : FVec Ideal ⟨2, ![1, N]⟩ .f32) :
    addf (matmul D none (truncf .bf16 y hbits) (truncf .bf16 W hbits) (constant (F := Ideal) ⟨2, ![M, N]⟩ .f32 0x00000000#32))
        (broadcastTo ⟨2, ![M, N]⟩ b hb)
      = affine y W b := by
  subst hD
  funext j
  obtain ⟨a, q, rfl⟩ : ∃ (a : Fin M) (q : Fin N), j = ix2 a q := ⟨j 0, j 1, eq_ix2 j⟩
  rw [affine_apply, addf_apply, matmul_plain_zero_apply, broadcastTo_1b_ab_apply b hb]
  rfl

/-- The first edge layer on a tile. -/
theorem tile_hidden3 (D : DotDims ⟨2, ![M, K]⟩ ⟨2, ![K, N]⟩ ⟨2, ![M, N]⟩) (hD : D = DotDims.plain M K N)
    (hbits : FTy.bits .bf16 < FTy.bits .f32)
    (hred : (⟨2, ![M, J]⟩ : Shape).Reduces [1] ⟨1, ![M]⟩) (hφ : FKind.Formats .f32)
    (hacc : (0x00000000#32 : BitVec 32) = 0x00000000#32)
    (hsc : (⟨1, ![M]⟩ : Shape).ShapeCasts ⟨2, ![M, 1]⟩) (hbc : (⟨2, ![M, 1]⟩ : Shape).Broadcasts ⟨2, ![M, N]⟩)
    (hbr : (⟨2, ![1, N]⟩ : Shape).Broadcasts ⟨2, ![M, N]⟩)
    (hr hc : FVec Ideal ⟨2, ![M, K]⟩ .f32) (rel : FVec Ideal ⟨2, ![M, J]⟩ .f32)
    (Wa Wb : FVec Ideal ⟨2, ![K, N]⟩ .f32) (wd b : FVec Ideal ⟨2, ![1, N]⟩ .f32) :
    addf (addf (addf
          (matmul D none (truncf .bf16 hr hbits) (truncf .bf16 Wa hbits) (constant (F := Ideal) ⟨2, ![M, N]⟩ .f32 0x00000000#32))
          (matmul D none (truncf .bf16 hc hbits) (truncf .bf16 Wb hbits) (constant (F := Ideal) ⟨2, ![M, N]⟩ .f32 0x00000000#32)))
        (mulf (broadcastTo ⟨2, ![M, N]⟩
            (shapeCast ⟨2, ![M, 1]⟩ (multiReduction (F := Ideal) .add [1] ⟨1, ![M]⟩ (mulf rel rel) 0x00000000#32 hred hφ hacc) hsc) hbc)
          (broadcastTo ⟨2, ![M, N]⟩ wd hbr)))
      (broadcastTo ⟨2, ![M, N]⟩ b hbr)
      = hidden3 hr hc (sqCol rel) Wa Wb wd b := by
  subst hD
  funext j
  obtain ⟨a, q, rfl⟩ : ∃ (a : Fin M) (q : Fin N), j = ix2 a q := ⟨j 0, j 1, eq_ix2 j⟩
  rw [hidden3_apply, addf_apply, addf_apply, addf_apply, mulf_apply, matmul_plain_zero_apply, matmul_plain_zero_apply,
    Cert.Pay.broadcastTo_a1_ab_apply _ hbc, Cert.Pay.shapeCast_a_a1_apply _ hsc, Cert.Pay.rowSum_apply,
    broadcastTo_1b_ab_apply wd hbr, broadcastTo_1b_ab_apply b hbr, sqCol_apply]
  rfl

/-- The first node layer on a tile. -/
theorem tile_hidden2 (D : DotDims ⟨2, ![M, K]⟩ ⟨2, ![K, N]⟩ ⟨2, ![M, N]⟩) (hD : D = DotDims.plain M K N)
    (hbits : FTy.bits .bf16 < FTy.bits .f32) (hbr : (⟨2, ![1, N]⟩ : Shape).Broadcasts ⟨2, ![M, N]⟩)
    (h agg : FVec Ideal ⟨2, ![M, K]⟩ .f32) (Wa Wb : FVec Ideal ⟨2, ![K, N]⟩ .f32) (b : FVec Ideal ⟨2, ![1, N]⟩ .f32) :
    addf (addf
          (matmul D none (truncf .bf16 h hbits) (truncf .bf16 Wa hbits) (constant (F := Ideal) ⟨2, ![M, N]⟩ .f32 0x00000000#32))
          (matmul D none (truncf .bf16 agg hbits) (truncf .bf16 Wb hbits) (constant (F := Ideal) ⟨2, ![M, N]⟩ .f32 0x00000000#32)))
      (broadcastTo ⟨2, ![M, N]⟩ b hbr)
      = hidden2 h agg Wa Wb b := by
  subst hD
  funext j
  obtain ⟨a, q, rfl⟩ : ∃ (a : Fin M) (q : Fin N), j = ix2 a q := ⟨j 0, j 1, eq_ix2 j⟩
  rw [hidden2_apply, addf_apply, addf_apply, matmul_plain_zero_apply, matmul_plain_zero_apply,
    broadcastTo_1b_ab_apply b hbr]
  rfl

/-- A column broadcast across the tile's columns, times the tile. -/
theorem tile_colScale (hbc : (⟨2, ![M, 1]⟩ : Shape).Broadcasts ⟨2, ![M, J]⟩)
    (cw : FVec Ideal ⟨2, ![M, 1]⟩ .f32) (rel : FVec Ideal ⟨2, ![M, J]⟩ .f32) :
    mulf (broadcastTo ⟨2, ![M, J]⟩ cw hbc) rel = colScale cw rel := by
  funext j
  obtain ⟨a, k, rfl⟩ : ∃ (a : Fin M) (k : Fin J), j = ix2 a k := ⟨j 0, j 1, eq_ix2 j⟩
  rw [colScale_apply, mulf_apply, Cert.Pay.broadcastTo_a1_ab_apply _ hbc]

/-! ## On a whole array -/

/-- The host's product. -/
theorem host_lin (D : DotDims ⟨2, ![M, K]⟩ ⟨2, ![K, N]⟩ ⟨2, ![M, N]⟩) (hD : D = DotDims.plain M K N)
    (Y : FVec Ideal ⟨2, ![M, K]⟩ .f32) (W : FVec Ideal ⟨2, ![K, N]⟩ .f32) :
    Host.dotGeneral D none Y W = lin Y W := by
  subst hD
  funext j
  obtain ⟨a, q, rfl⟩ : ∃ (a : Fin M) (q : Fin N), j = ix2 a q := ⟨j 0, j 1, eq_ix2 j⟩
  rw [lin_apply, StackMember.dotGeneral_plain_apply]

/-- A column broadcast across the columns along axes 0 and 1, times the array. -/
theorem host_colScale (h2 : (⟨2, ![M, 1]⟩ : Shape).BroadcastsInDim ⟨2, ![M, J]⟩ ![0, 1])
    (cw : FVec Ideal ⟨2, ![M, 1]⟩ .f32) (rel : FVec Ideal ⟨2, ![M, J]⟩ .f32) :
    mulf (broadcastInDim ⟨2, ![M, J]⟩ ![0, 1] h2 cw) rel = colScale cw rel := by
  funext j
  obtain ⟨a, k, rfl⟩ : ∃ (a : Fin M) (k : Fin J), j = ix2 a k := ⟨j 0, j 1, eq_ix2 j⟩
  rw [colScale_apply, mulf_apply, broadcastInDim_a1_ab_apply _ h2]

/-! ## A product with a stacked weight matrix -/

/-- Three arrays side by side (K, K and 1 columns) times a weight matrix of n = K + K + 1 rows, plus a bias row: the
    two products with the first two bands of K rows, the column times the last row, the bias. -/
theorem affine_concat3 (n o1 o2 : Nat) (hn : n = K + K + 1) (ho1 : K = o1) (ho2 : K + K = o2)
    (A B : FVec Ideal ⟨2, ![M, K]⟩ .f32) (C : FVec Ideal ⟨2, ![M, 1]⟩ .f32)
    (hcat : Shape.Concatenates [(⟨2, ![M, K]⟩ : Shape), ⟨2, ![M, K]⟩, ⟨2, ![M, 1]⟩] ⟨2, ![M, n]⟩ (1 : Fin 2))
    (W : FVec Ideal ⟨2, ![n, N]⟩ .f32)
    (hs0 : (⟨2, ![n, N]⟩ : Shape).Slices ![0, 0] ⟨2, ![K, N]⟩) (hs1 : (⟨2, ![n, N]⟩ : Shape).Slices ![o1, 0] ⟨2, ![K, N]⟩)
    (hs2 : (⟨2, ![n, N]⟩ : Shape).Slices ![o2, 0] ⟨2, ![1, N]⟩) (b : FVec Ideal ⟨2, ![1, N]⟩ .f32) :
    affine (concatenate ⟨2, ![M, n]⟩ (1 : Fin 2) [⟨⟨2, ![M, K]⟩, A⟩, ⟨⟨2, ![M, K]⟩, B⟩, ⟨⟨2, ![M, 1]⟩, C⟩] hcat) W b
      = hidden3 A B C (extractStridedSlice ⟨2, ![K, N]⟩ ![0, 0] W hs0) (extractStridedSlice ⟨2, ![K, N]⟩ ![o1, 0] W hs1)
          (extractStridedSlice ⟨2, ![1, N]⟩ ![o2, 0] W hs2) b := by
  subst hn ho1 ho2
  funext j
  obtain ⟨a, q, rfl⟩ : ∃ (a : Fin M) (q : Fin N), j = ix2 a q := ⟨j 0, j 1, eq_ix2 j⟩
  rw [affine_apply, hidden3_apply, sum_three_parts K]
  have eA : ∀ i : Fin K, concatenate ⟨2, ![M, K + K + 1]⟩ (1 : Fin 2) [⟨⟨2, ![M, K]⟩, A⟩, ⟨⟨2, ![M, K]⟩, B⟩, ⟨⟨2, ![M, 1]⟩, C⟩] hcat
      (ix2 a ⟨i.val, by omega⟩) = A (ix2 a i) := fun i =>
    concatenate_apply_piece (α := EReal) (t := ⟨2, ![M, K + K + 1]⟩) (1 : Fin 2) [⟨⟨2, ![M, K]⟩, A⟩, ⟨⟨2, ![M, K]⟩, B⟩, ⟨⟨2, ![M, 1]⟩, C⟩] hcat _ 0 (by simp) _ A rfl rfl 0 rfl (ix2 a i)
      (fun b hb => by match b with | ⟨0, _⟩ => rfl | ⟨1, _⟩ => exact absurd rfl hb) (Nat.zero_add _)
  have eB : ∀ i : Fin K, concatenate ⟨2, ![M, K + K + 1]⟩ (1 : Fin 2) [⟨⟨2, ![M, K]⟩, A⟩, ⟨⟨2, ![M, K]⟩, B⟩, ⟨⟨2, ![M, 1]⟩, C⟩] hcat
      (ix2 a ⟨K + i.val, by omega⟩) = B (ix2 a i) := fun i =>
    concatenate_apply_piece (α := EReal) (t := ⟨2, ![M, K + K + 1]⟩) (1 : Fin 2) [⟨⟨2, ![M, K]⟩, A⟩, ⟨⟨2, ![M, K]⟩, B⟩, ⟨⟨2, ![M, 1]⟩, C⟩] hcat _ 1 (by simp) _ B rfl rfl K (by simp) (ix2 a i)
      (fun b hb => by match b with | ⟨0, _⟩ => rfl | ⟨1, _⟩ => exact absurd rfl hb) rfl
  have eC : concatenate ⟨2, ![M, K + K + 1]⟩ (1 : Fin 2) [⟨⟨2, ![M, K]⟩, A⟩, ⟨⟨2, ![M, K]⟩, B⟩, ⟨⟨2, ![M, 1]⟩, C⟩] hcat
      (ix2 a ⟨K + K, by omega⟩) = C (ix2 a (0 : Fin 1)) :=
    concatenate_apply_piece (α := EReal) (t := ⟨2, ![M, K + K + 1]⟩) (1 : Fin 2) [⟨⟨2, ![M, K]⟩, A⟩, ⟨⟨2, ![M, K]⟩, B⟩, ⟨⟨2, ![M, 1]⟩, C⟩] hcat _ 2 (by simp) _ C rfl rfl (K + K) (by simp) (ix2 a (0 : Fin 1))
      (fun b hb => by match b with | ⟨0, _⟩ => rfl | ⟨1, _⟩ => exact absurd rfl hb) rfl
  have w0 : ∀ i : Fin K, extractStridedSlice ⟨2, ![K, N]⟩ ![0, 0] W hs0 (ix2 i q) = W (ix2 ⟨i.val, by omega⟩ q) := fun i =>
    slice2_axis0_apply 0 W hs0 i q ⟨i.val, by omega⟩ (Nat.zero_add _).symm
  have w1 : ∀ i : Fin K, extractStridedSlice ⟨2, ![K, N]⟩ ![K, 0] W hs1 (ix2 i q) = W (ix2 ⟨K + i.val, by omega⟩ q) := fun i =>
    slice2_axis0_apply K W hs1 i q ⟨K + i.val, by omega⟩ rfl
  have w2 : extractStridedSlice ⟨2, ![1, N]⟩ ![K + K, 0] W hs2 (ix2 (0 : Fin 1) q) = W (ix2 ⟨K + K, by omega⟩ q) :=
    slice2_axis0_apply (K + K) W hs2 (0 : Fin 1) q ⟨K + K, by omega⟩ rfl
  simp only [eA, eB, eC, w0, w1, w2]

/-- Two arrays side by side (K columns each) times a weight matrix of n = K + K rows, plus a bias row. -/
theorem affine_concat2 (n o1 : Nat) (hn : n = K + K) (ho1 : K = o1)
    (A B : FVec Ideal ⟨2, ![M, K]⟩ .f32)
    (hcat : Shape.Concatenates [(⟨2, ![M, K]⟩ : Shape), ⟨2, ![M, K]⟩] ⟨2, ![M, n]⟩ (1 : Fin 2))
    (W : FVec Ideal ⟨2, ![n, N]⟩ .f32)
    (hs0 : (⟨2, ![n, N]⟩ : Shape).Slices ![0, 0] ⟨2, ![K, N]⟩) (hs1 : (⟨2, ![n, N]⟩ : Shape).Slices ![o1, 0] ⟨2, ![K, N]⟩)
    (b : FVec Ideal ⟨2, ![1, N]⟩ .f32) :
    affine (concatenate ⟨2, ![M, n]⟩ (1 : Fin 2) [⟨⟨2, ![M, K]⟩, A⟩, ⟨⟨2, ![M, K]⟩, B⟩] hcat) W b
      = hidden2 A B (extractStridedSlice ⟨2, ![K, N]⟩ ![0, 0] W hs0) (extractStridedSlice ⟨2, ![K, N]⟩ ![o1, 0] W hs1) b := by
  subst hn ho1
  funext j
  obtain ⟨a, q, rfl⟩ : ∃ (a : Fin M) (q : Fin N), j = ix2 a q := ⟨j 0, j 1, eq_ix2 j⟩
  rw [affine_apply, hidden2_apply, sum_two_parts K]
  have eA : ∀ i : Fin K, concatenate ⟨2, ![M, K + K]⟩ (1 : Fin 2) [⟨⟨2, ![M, K]⟩, A⟩, ⟨⟨2, ![M, K]⟩, B⟩] hcat
      (ix2 a ⟨i.val, by omega⟩) = A (ix2 a i) := fun i =>
    concatenate_apply_piece (α := EReal) (t := ⟨2, ![M, K + K]⟩) (1 : Fin 2) [⟨⟨2, ![M, K]⟩, A⟩, ⟨⟨2, ![M, K]⟩, B⟩] hcat _ 0 (by simp) _ A rfl rfl 0 rfl (ix2 a i)
      (fun b hb => by match b with | ⟨0, _⟩ => rfl | ⟨1, _⟩ => exact absurd rfl hb) (Nat.zero_add _)
  have eB : ∀ i : Fin K, concatenate ⟨2, ![M, K + K]⟩ (1 : Fin 2) [⟨⟨2, ![M, K]⟩, A⟩, ⟨⟨2, ![M, K]⟩, B⟩] hcat
      (ix2 a ⟨K + i.val, by omega⟩) = B (ix2 a i) := fun i =>
    concatenate_apply_piece (α := EReal) (t := ⟨2, ![M, K + K]⟩) (1 : Fin 2) [⟨⟨2, ![M, K]⟩, A⟩, ⟨⟨2, ![M, K]⟩, B⟩] hcat _ 1 (by simp) _ B rfl rfl K (by simp) (ix2 a i)
      (fun b hb => by match b with | ⟨0, _⟩ => rfl | ⟨1, _⟩ => exact absurd rfl hb) rfl
  have w0 : ∀ i : Fin K, extractStridedSlice ⟨2, ![K, N]⟩ ![0, 0] W hs0 (ix2 i q) = W (ix2 ⟨i.val, by omega⟩ q) := fun i =>
    slice2_axis0_apply 0 W hs0 i q ⟨i.val, by omega⟩ (Nat.zero_add _).symm
  have w1 : ∀ i : Fin K, extractStridedSlice ⟨2, ![K, N]⟩ ![K, 0] W hs1 (ix2 i q) = W (ix2 ⟨K + i.val, by omega⟩ q) := fun i =>
    slice2_axis0_apply K W hs1 i q ⟨K + i.val, by omega⟩ rfl
  simp only [eA, eB, w0, w1]

end Cert.EdgeNode

end
-- ==== Proof.KTile.lean ====
/-
  The two kernel bodies' stores as the layer's functions of their tiles.

  The edge body stores, for its tile of 1600 edges, `messages` of the tile's rows of hr, hc and rel, and then
  `coordTerm` of that message tile; the node body stores, for its tile of 2000 nodes, `nodeOut` of the tile's rows of
  h and of the aggregated messages. A reshape to the same shape is the identity; the roundings to bf16 are the
  identity at the ideal values.
-/
import proofs.«133342_j5832565588032_1_alg».proof.Proof.Gen.KernelIdeal.Skeleton
import proofs.«133342_j5832565588032_1_alg».proof.Proof.LibLayerSpell

noncomputable section

namespace Cert.KernelIdeal.Tile

open Cert.KernelIdeal Cert.KernelIdeal.Gen Idealize.ShloMosaic Idealize.ShloMosaic.ValueIdx
open Cert.GraphLayer Cert.EdgeNode

/-- The edge body's first store: the messages of the tile. -/
theorem msg_tile (v0 v3 : FVec Ideal S1600x128 .f32) (v6 : FVec Ideal S1600x3 .f32) (v11 v14 : FVec Ideal S128x128 .f32)
    (v20 v26 : FVec Ideal S1x128 .f32) (v32 : FVec Ideal S128x128 .f32) (v36 : FVec Ideal S1x128 .f32) :
    k0_pay1 (F := Ideal) (k0_pay4 v0 v3 v6 v11 v14 v20 v26 v32) v36 = messages v0 v3 v6 v11 v14 v20 v26 v32 v36 := by
  unfold k0_pay1 k0_pay4 k0_pay3 messages
  dsimp only
  simp only [shapeCast_self]
  rw [tile_hidden3 dot_S1600x128_S128x128_S1600x128_1_0_0_1_n_n rfl, tile_ramp,
    tile_affine0 dot_S1600x128_S128x128_S1600x128_1_0_0_1_n_n rfl]

/-- The edge body's second store: the coordinate terms of the tile, from the message tile. -/
theorem coord_tile (v7 : FVec Ideal S1600x3 .f32) (p : FVec Ideal S1600x128 .f32) (v36 : FVec Ideal S1x128 .f32)
    (v41 : FVec Ideal S128x128 .f32) (v45 : FVec Ideal S1x128 .f32) (v51 : FVec Ideal S128x1 .f32) :
    k0_pay2 (F := Ideal) v7 p v36 v41 v45 v51 = coordTerm (k0_pay1 (F := Ideal) p v36) v7 v41 v45 v51 := by
  unfold k0_pay2 coordTerm
  dsimp only
  simp only [shapeCast_self]
  rw [tile_affine0 dot_S1600x128_S128x128_S1600x128_1_0_0_1_n_n rfl, tile_ramp,
    tile_lin dot_S1600x128_S128x1_S1600x1_1_0_0_1_n_n rfl, tile_colScale]

/-- The rel tile as the body carries it: a reshape to the same shape. -/
theorem rel_tile (v6 : FVec Ideal S1600x3 .f32) : k0_pay3 (F := Ideal) v6 = v6 := by
  unfold k0_pay3
  exact shapeCast_self v6 _

/-- The node body's store: the new features of the tile. -/
theorem node_tile (v0 v2 : FVec Ideal S2000x128 .f32) (v5 v8 : FVec Ideal S128x128 .f32) (v14 : FVec Ideal S1x128 .f32)
    (v20 : FVec Ideal S128x128 .f32) (v24 : FVec Ideal S1x128 .f32) :
    k1_pay1 (F := Ideal) v0 v2 v5 v8 v14 v20 v24 = nodeOut v0 v2 v5 v8 v14 v20 v24 := by
  unfold k1_pay1 nodeOut
  dsimp only
  simp only [shapeCast_self]
  rw [tile_hidden2 dot_S2000x128_S128x128_S2000x128_1_0_0_1_n_n rfl, tile_ramp,
    tile_affine0 dot_S2000x128_S128x128_S2000x128_1_0_0_1_n_n rfl]

end Cert.KernelIdeal.Tile

end
-- ==== Proof.KBlocks0.lean ====
/-
  The edge region's two output arrays as whole-array functions of the arrays the region finds.

  The region has 375 points; point t reads rows 1600 t … 1600 t + 1599 of the three edge arrays (hr, hc, rel), all of
  each weight array, and writes back rows 1600 t … 1600 t + 1599 of the message array and of the coordinate-term
  array. Every entry of `messages` and of `coordTerm` reads one row of the edge operands only, so what point t writes
  back is block t of the whole-array function; the 375 blocks cover the 600000 rows (row r lies in block r / 1600), so
  each output array ends holding the whole-array function.
-/
import proofs.«133342_j5832565588032_1_alg».proof.Proof.Gen.KernelIdeal.Frame
import proofs.«133342_j5832565588032_1_alg».proof.Proof.KTile

set_option maxRecDepth 16384

noncomputable section

namespace Cert.KernelIdeal.Blocks

open Cert.KernelIdeal Cert.KernelIdeal.Gen Cert.KernelIdeal.Tile
open Idealize.ShloMosaic Idealize.ShloMosaic.TcCoe Idealize.ShloMosaic.ValueIdx Idealize.SL.Sem
open Idealize.ShloMosaic.Pipeline (Dat Cfg Window)
open Cert.GraphLayer Cert.EdgeNode

variable (V : (c : Dev nD) → (b : Ref sig .tc) → Buf (Elt Ideal) ((c : Thread nD τ).loc b))

theorem zero_offsets : (![0, 0] : Fin 2 → Nat) = fun _ => 0 := funext fun a => by fin_cases a <;> rfl

/-! ## The index maps over the 375 points -/

/-- The edge windows (the three edge inputs, the two outputs) sit at block row t, block column 0. -/
theorem edge_points0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- The weight windows sit at block (0, 0) at every point. -/
theorem weight_points0 : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-! ## A weight window's block is its whole array -/

theorem wblk0_3 (c : Dev nD) (t : Fin cfg0.N) : (iblk0 V c 3 t : FVec Ideal S128x128 .f32) = V c main_v33 := by
  funext y
  show V c main_v33 (((cfg0.win 3).blk t).view.emb y) = V c main_v33 y
  obtain ⟨⟨e0, e1⟩, -, -, -, -, -, -, -, -⟩ := weight_points0 t
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem wblk0_4 (c : Dev nD) (t : Fin cfg0.N) : (iblk0 V c 4 t : FVec Ideal S128x128 .f32) = V c main_v34 := by
  funext y
  show V c main_v34 (((cfg0.win 4).blk t).view.emb y) = V c main_v34 y
  obtain ⟨-, ⟨e0, e1⟩, -, -, -, -, -, -, -⟩ := weight_points0 t
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem wblk0_5 (c : Dev nD) (t : Fin cfg0.N) : (iblk0 V c 5 t : FVec Ideal S1x128 .f32) = V c main_v35 := by
  funext y
  show V c main_v35 (((cfg0.win 5).blk t).view.emb y) = V c main_v35 y
  obtain ⟨-, -, ⟨e0, e1⟩, -, -, -, -, -, -⟩ := weight_points0 t
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem wblk0_6 (c : Dev nD) (t : Fin cfg0.N) : (iblk0 V c 6 t : FVec Ideal S1x128 .f32) = V c main_v36 := by
  funext y
  show V c main_v36 (((cfg0.win 6).blk t).view.emb y) = V c main_v36 y
  obtain ⟨-, -, -, ⟨e0, e1⟩, -, -, -, -, -⟩ := weight_points0 t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem wblk0_7 (c : Dev nD) (t : Fin cfg0.N) : (iblk0 V c 7 t : FVec Ideal S128x128 .f32) = V c main_arg5 := by
  funext y
  show V c main_arg5 (((cfg0.win 7).blk t).view.emb y) = V c main_arg5 y
  obtain ⟨-, -, -, -, ⟨e0, e1⟩, -, -, -, -⟩ := weight_points0 t
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem wblk0_8 (c : Dev nD) (t : Fin cfg0.N) : (iblk0 V c 8 t : FVec Ideal S1x128 .f32) = V c main_v37 := by
  funext y
  show V c main_v37 (((cfg0.win 8).blk t).view.emb y) = V c main_v37 y
  obtain ⟨-, -, -, -, -, ⟨e0, e1⟩, -, -, -⟩ := weight_points0 t
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem wblk0_9 (c : Dev nD) (t : Fin cfg0.N) : (iblk0 V c 9 t : FVec Ideal S128x128 .f32) = V c main_arg11 := by
  funext y
  show V c main_arg11 (((cfg0.win 9).blk t).view.emb y) = V c main_arg11 y
  obtain ⟨-, -, -, -, -, -, ⟨e0, e1⟩, -, -⟩ := weight_points0 t
  refine congrArg _ (funext fun a => Fin.ext ?_)
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem wblk0_10 (c : Dev nD) (t : Fin cfg0.N) : (iblk0 V c 10 t : FVec Ideal S1x128 .f32) = V c main_v38 := by
  funext y
  show V c main_v38 (((cfg0.win 10).blk t).view.emb y) = V c main_v38 y
  obtain ⟨-, -, -, -, -, -, -, ⟨e0, e1⟩, -⟩ := weight_points0 t
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

theorem wblk0_11 (c : Dev nD) (t : Fin cfg0.N) : (iblk0 V c 11 t : FVec Ideal S128x1 .f32) = V c main_arg13 := by
  funext y
  show V c main_arg13 (((cfg0.win 11).blk t).view.emb y) = V c main_arg13 y
  obtain ⟨-, -, -, -, -, -, -, -, ⟨e0, e1⟩⟩ := weight_points0 t
  refine congrArg _ (funext fun a => Fin.ext ?_)
  match a with
  | ⟨0, _⟩ => show win0_11.index t (0 : Fin 2) * 128 + 1 * (y 0).val = (y 0).val; omega
  | ⟨1, _⟩ => show win0_11.index t (1 : Fin 2) * 1 + 1 * (y 1).val = (y 1).val; omega

/-! ## Rows of an edge input's block -/

/-- Row r of point t's block of hr is row 1600 t + r of the array. -/
theorem blkrow_hr (c : Dev nD) (t : Fin cfg0.N) (r : Fin 1600) (R : Fin 600000) (hR : R.val = t.val * 1600 + r.val)
    (cc : Fin 128) : (iblk0 V c 0 t : FVec Ideal S1600x128 .f32) (ix2 r cc) = V c main_v10 (ix2 R cc) := by
  obtain ⟨⟨a0, b0⟩, ⟨a1, b1⟩, ⟨a2, b2⟩, -⟩ := edge_points0 t
  show V c main_v10 (((cfg0.win 0).blk t).view.emb (ix2 r cc)) = V c main_v10 (ix2 R cc)
  refine congrArg _ (funext fun ax => Fin.ext ?_)
  match ax with
  | ⟨0, _⟩ => show win0_0.index t (0 : Fin 2) * 1600 + 1 * r.val = R.val; omega
  | ⟨1, _⟩ => show win0_0.index t (1 : Fin 2) * 128 + 1 * cc.val = cc.val; omega

/-- Row r of point t's block of hc is row 1600 t + r of the array. -/
theorem blkrow_hc (c : Dev nD) (t : Fin cfg0.N) (r : Fin 1600) (R : Fin 600000) (hR : R.val = t.val * 1600 + r.val)
    (cc : Fin 128) : (iblk0 V c 1 t : FVec Ideal S1600x128 .f32) (ix2 r cc) = V c main_v17 (ix2 R cc) := by
  obtain ⟨⟨a0, b0⟩, ⟨a1, b1⟩, ⟨a2, b2⟩, -⟩ := edge_points0 t
  show V c main_v17 (((cfg0.win 1).blk t).view.emb (ix2 r cc)) = V c main_v17 (ix2 R cc)
  refine congrArg _ (funext fun ax => Fin.ext ?_)
  match ax with
  | ⟨0, _⟩ => show win0_1.index t (0 : Fin 2) * 1600 + 1 * r.val = R.val; omega
  | ⟨1, _⟩ => show win0_1.index t (1 : Fin 2) * 128 + 1 * cc.val = cc.val; omega

/-- Row r of point t's block of rel is row 1600 t + r of the array. -/
theorem blkrow_rel (c : Dev nD) (t : Fin cfg0.N) (r : Fin 1600) (R : Fin 600000) (hR : R.val = t.val * 1600 + r.val)
    (cc : Fin 3) : (iblk0 V c 2 t : FVec Ideal S1600x3 .f32) (ix2 r cc) = V c main_v32 (ix2 R cc) := by
  obtain ⟨⟨a0, b0⟩, ⟨a1, b1⟩, ⟨a2, b2⟩, -⟩ := edge_points0 t
  show V c main_v32 (((cfg0.win 2).blk t).view.emb (ix2 r cc)) = V c main_v32 (ix2 R cc)
  refine congrArg _ (funext fun ax => Fin.ext ?_)
  match ax with
  | ⟨0, _⟩ => show win0_2.index t (0 : Fin 2) * 1600 + 1 * r.val = R.val; omega
  | ⟨1, _⟩ => show win0_2.index t (1 : Fin 2) * 3 + 1 * cc.val = cc.val; omega

/-! ## The message array -/

/-- The message array as the region leaves it, from the arrays it finds. -/
abbrev msgOf (c : Dev nD) : FVec Ideal S600000x128 .f32 :=
  messages (V c main_v10) (V c main_v17) (V c main_v32) (V c main_v33) (V c main_v34) (V c main_v35) (V c main_v36)
    (V c main_arg5) (V c main_v37)

/-- The messages of point t's tile, as the body computes them from its blocks with the weight blocks read as arrays. -/
abbrev msgTile (c : Dev nD) (t : Fin cfg0.N) : FVec Ideal S1600x128 .f32 :=
  messages (iblk0 V c 0 t : FVec Ideal S1600x128 .f32) (iblk0 V c 1 t : FVec Ideal S1600x128 .f32)
    (iblk0 V c 2 t : FVec Ideal S1600x3 .f32) (V c main_v33) (V c main_v34) (V c main_v35) (V c main_v36)
    (V c main_arg5) (V c main_v37)

/-- Row r of the tile's messages is row 1600 t + r of `msgOf`. -/
theorem msg_row (c : Dev nD) (t : Fin cfg0.N) (r : Fin 1600) (R : Fin 600000) (hR : R.val = t.val * 1600 + r.val)
    (q : Fin 128) : msgTile V c t (ix2 r q) = msgOf V c (ix2 R q) :=
  messages_rows _ _ _ _ _ _ _ _ _ _ _ _ r R q (blkrow_hr V c t r R hR) (blkrow_hc V c t r R hR) (blkrow_rel V c t r R hR)

/-- What point t writes back to the message array is block t of `msgOf`. -/
theorem flushed_msg (c : Dev nD) (t : Fin cfg0.N) :
    (dat0 V c).flushed 12 t = ((cfg0.win 12).blk t).view.read (Elt Ideal) (msgOf V c) := by
  show (cfg0.win 12).cut (grid0.coords t) ((dat0 V c).after 12 t) = _
  rw [after0_12]
  unfold out0_12
  rw [View.canon_unit_zero zero_offsets]
  simp only [View.ld_unit_zero (S := S1600x128) zero_offsets, View.ld_unit_zero (S := S1600x3) zero_offsets,
    View.ld_unit_zero (S := S128x128) zero_offsets, View.ld_unit_zero (S := S1x128) zero_offsets]
  rw [msg_tile, wblk0_3 V c t, wblk0_4 V c t, wblk0_5 V c t, wblk0_6 V c t, wblk0_7 V c t, wblk0_8 V c t]
  obtain ⟨-, -, -, ⟨a12, b12⟩, -⟩ := edge_points0 t
  funext j
  show msgTile V c t j = msgOf V c (((cfg0.win 12).blk t).view.emb j)
  have hR : ((((cfg0.win 12).blk t).view.emb j) 0).val = t.val * 1600 + (j 0).val := by
    show win0_12.index t (0 : Fin 2) * 1600 + 1 * (j 0).val = t.val * 1600 + (j 0).val
    omega
  have hq : ((((cfg0.win 12).blk t).view.emb j) 1).val = (j 1).val := by
    show win0_12.index t (1 : Fin 2) * 128 + 1 * (j 1).val = (j 1).val
    omega
  exact messages_at _ _ _ _ _ _ _ _ _ _ _ _ j _ hq (blkrow_hr V c t (j 0) _ hR) (blkrow_hc V c t (j 0) _ hR)
    (blkrow_rel V c t (j 0) _ hR)

/-- An index of the msg array lies in point t's block iff each coordinate lies in the block's range. -/
theorem mem_blk_msg (t : Fin cfg0.N) (i : S600000x128.Idx) :
    i ∈ ((cfg0.win 12).blk t).view.set ↔ ∀ a : Fin 2, win0_12.index t a * S1600x128.size a ≤ (i a).val
      ∧ (i a).val < win0_12.index t a * S1600x128.size a + S1600x128.size a := by
  show i ∈ ((View.whole main_v39_0).slice (win0_12.rect t)).set ↔ _
  rw [View.set_slice_whole, Rect.mem_set_unit]
  exact Iff.rfl

/-- Every row of the msg array lies in the block of the point r / 1600. -/
theorem cover_msg (i : S600000x128.Idx) :
    ∃ t : Fin cfg0.N, (cfg0.win 12).flush t = true ∧ i ∈ ((cfg0.win 12).blk t).view.set := by
  have hN : cfg0.N = 375 := N_0
  have h0 : (i 0).val < 600000 := (i 0).isLt
  have h1 : (i 1).val < 128 := (i 1).isLt
  have hlt : (i 0).val / 1600 < cfg0.N := by rw [hN]; omega
  refine ⟨⟨(i 0).val / 1600, hlt⟩, flush0_12 _, ?_⟩
  rw [mem_blk_msg]
  obtain ⟨-, -, -, ⟨a12, b12⟩, ⟨a13, b13⟩⟩ := edge_points0 ⟨(i 0).val / 1600, hlt⟩
  intro a
  match a with
  | ⟨0, _⟩ =>
    show win0_12.index ⟨(i 0).val / 1600, hlt⟩ (0 : Fin 2) * 1600 ≤ (i 0).val
      ∧ (i 0).val < win0_12.index ⟨(i 0).val / 1600, hlt⟩ (0 : Fin 2) * 1600 + 1600
    rw [a12]
    show (i 0).val / 1600 * 1600 ≤ (i 0).val ∧ (i 0).val < (i 0).val / 1600 * 1600 + 1600
    omega
  | ⟨1, _⟩ =>
    show win0_12.index ⟨(i 0).val / 1600, hlt⟩ (1 : Fin 2) * 128 ≤ (i 1).val
      ∧ (i 1).val < win0_12.index ⟨(i 0).val / 1600, hlt⟩ (1 : Fin 2) * 128 + 128
    rw [b12]
    omega

/-- The msg array after the region. -/
theorem final_msg (c : Dev nD) : (dat0 V c).arrAt 12 cfg0.N = msgOf V c :=
  (dat0 V c).arrAt_eq_of_cover 12 (msgOf V c) (fun t _ => flushed_msg V c t) cover_msg

/-! ## The coordinate-term array -/

/-- The coordinate-term array as the region leaves it. -/
abbrev coordOf (c : Dev nD) : FVec Ideal S600000x3 .f32 :=
  coordTerm (msgOf V c) (V c main_v32) (V c main_arg11) (V c main_v38) (V c main_arg13)

/-- What point t writes back to the coordinate-term array is block t of `coordOf`. -/
theorem flushed_coord (c : Dev nD) (t : Fin cfg0.N) :
    (dat0 V c).flushed 13 t = ((cfg0.win 13).blk t).view.read (Elt Ideal) (coordOf V c) := by
  show (cfg0.win 13).cut (grid0.coords t) ((dat0 V c).after 13 t) = _
  rw [after0_13]
  unfold out0_13
  rw [View.canon_unit_zero zero_offsets]
  simp only [View.ld_unit_zero (S := S1600x128) zero_offsets, View.ld_unit_zero (S := S1600x3) zero_offsets,
    View.ld_unit_zero (S := S128x128) zero_offsets, View.ld_unit_zero (S := S1x128) zero_offsets,
    View.ld_unit_zero (S := S128x1) zero_offsets]
  rw [coord_tile, msg_tile, rel_tile, wblk0_3 V c t, wblk0_4 V c t, wblk0_5 V c t, wblk0_6 V c t, wblk0_7 V c t,
    wblk0_8 V c t, wblk0_9 V c t, wblk0_10 V c t, wblk0_11 V c t]
  obtain ⟨-, -, -, -, ⟨a13, b13⟩⟩ := edge_points0 t
  funext j
  show coordTerm (msgTile V c t) (iblk0 V c 2 t : FVec Ideal S1600x3 .f32) (V c main_arg11) (V c main_v38) (V c main_arg13) j
    = coordOf V c (((cfg0.win 13).blk t).view.emb j)
  have hR : ((((cfg0.win 13).blk t).view.emb j) 0).val = t.val * 1600 + (j 0).val := by
    show win0_13.index t (0 : Fin 2) * 1600 + 1 * (j 0).val = t.val * 1600 + (j 0).val
    omega
  have hq : ((((cfg0.win 13).blk t).view.emb j) 1).val = (j 1).val := by
    show win0_13.index t (1 : Fin 2) * 3 + 1 * (j 1).val = (j 1).val
    omega
  exact coordTerm_at _ _ _ _ _ _ _ j _ hq (msg_row V c t (j 0) _ hR) (blkrow_rel V c t (j 0) _ hR)

/-- An index of the coord array lies in point t's block iff each coordinate lies in the block's range. -/
theorem mem_blk_coord (t : Fin cfg0.N) (i : S600000x3.Idx) :
    i ∈ ((cfg0.win 13).blk t).view.set ↔ ∀ a : Fin 2, win0_13.index t a * S1600x3.size a ≤ (i a).val
      ∧ (i a).val < win0_13.index t a * S1600x3.size a + S1600x3.size a := by
  show i ∈ ((View.whole main_v39_1).slice (win0_13.rect t)).set ↔ _
  rw [View.set_slice_whole, Rect.mem_set_unit]
  exact Iff.rfl

/-- Every row of the coord array lies in the block of the point r / 1600. -/
theorem cover_coord (i : S600000x3.Idx) :
    ∃ t : Fin cfg0.N, (cfg0.win 13).flush t = true ∧ i ∈ ((cfg0.win 13).blk t).view.set := by
  have hN : cfg0.N = 375 := N_0
  have h0 : (i 0).val < 600000 := (i 0).isLt
  have h1 : (i 1).val < 3 := (i 1).isLt
  have hlt : (i 0).val / 1600 < cfg0.N := by rw [hN]; omega
  refine ⟨⟨(i 0).val / 1600, hlt⟩, flush0_13 _, ?_⟩
  rw [mem_blk_coord]
  obtain ⟨-, -, -, ⟨a12, b12⟩, ⟨a13, b13⟩⟩ := edge_points0 ⟨(i 0).val / 1600, hlt⟩
  intro a
  match a with
  | ⟨0, _⟩ =>
    show win0_13.index ⟨(i 0).val / 1600, hlt⟩ (0 : Fin 2) * 1600 ≤ (i 0).val
      ∧ (i 0).val < win0_13.index ⟨(i 0).val / 1600, hlt⟩ (0 : Fin 2) * 1600 + 1600
    rw [a13]
    show (i 0).val / 1600 * 1600 ≤ (i 0).val ∧ (i 0).val < (i 0).val / 1600 * 1600 + 1600
    omega
  | ⟨1, _⟩ =>
    show win0_13.index ⟨(i 0).val / 1600, hlt⟩ (1 : Fin 2) * 3 ≤ (i 1).val
      ∧ (i 1).val < win0_13.index ⟨(i 0).val / 1600, hlt⟩ (1 : Fin 2) * 3 + 3
    rw [b13]
    omega

/-- The coord array after the region. -/
theorem final_coord (c : Dev nD) : (dat0 V c).arrAt 13 cfg0.N = coordOf V c :=
  (dat0 V c).arrAt_eq_of_cover 13 (coordOf V c) (fun t _ => flushed_coord V c t) cover_coord

end Cert.KernelIdeal.Blocks

end
-- ==== Proof.KBlocks1.lean ====
/-
  The node region's output array as a whole-array function of the arrays the region finds.

  The region has 25 points; point t reads rows 2000 t … 2000 t + 1999 of the node features h and of the aggregated
  messages, all of each weight array, and writes back rows 2000 t … 2000 t + 1999 of the new features. Every entry of
  `nodeOut` reads one row of the two node operands only, so what point t writes back is block t of the whole-array
  function; the 25 blocks cover the 50000 rows (row r lies in block r / 2000).
-/
import proofs.«133342_j5832565588032_1_alg».proof.Proof.KBlocks0

set_option maxRecDepth 16384

noncomputable section

namespace Cert.KernelIdeal.Blocks

open Cert.KernelIdeal Cert.KernelIdeal.Gen Cert.KernelIdeal.Tile
open Idealize.ShloMosaic Idealize.ShloMosaic.TcCoe Idealize.ShloMosaic.ValueIdx Idealize.SL.Sem
open Idealize.ShloMosaic.Pipeline (Dat Cfg Window)
open Cert.GraphLayer Cert.EdgeNode

variable (V : (c : Dev nD) → (b : Ref sig .tc) → Buf (Elt Ideal) ((c : Thread nD τ).loc b))

/-! ## The index maps over the 25 points -/

/-- The node windows (the two node inputs, the output) sit at block row t, block column 0. -/
theorem node_points1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_7.index t (0 : Fin 2) = t.val ∧ win1_7.index t (1 : Fin 2) = 0) :=
  (by decide +kernel : ∀ t : Fin grid1.N, _)

/-- The weight windows sit at block (0, 0) at every point. -/
theorem weight_points1 : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-! ## A weight window's block is its whole array -/

theorem wblk1_2 (c : Dev nD) (t : Fin cfg1.N) : (iblk1 V c 2 t : FVec Ideal S128x128 .f32) = V c main_v46 := by
  funext y
  show V c main_v46 (((cfg1.win 2).blk t).view.emb y) = V c main_v46 y
  obtain ⟨⟨e0, e1⟩, -, -, -, -⟩ := weight_points1 t
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem wblk1_3 (c : Dev nD) (t : Fin cfg1.N) : (iblk1 V c 3 t : FVec Ideal S128x128 .f32) = V c main_v47 := by
  funext y
  show V c main_v47 (((cfg1.win 3).blk t).view.emb y) = V c main_v47 y
  obtain ⟨-, ⟨e0, e1⟩, -, -, -⟩ := weight_points1 t
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem wblk1_4 (c : Dev nD) (t : Fin cfg1.N) : (iblk1 V c 4 t : FVec Ideal S1x128 .f32) = V c main_v48 := by
  funext y
  show V c main_v48 (((cfg1.win 4).blk t).view.emb y) = V c main_v48 y
  obtain ⟨-, -, ⟨e0, e1⟩, -, -⟩ := weight_points1 t
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem wblk1_5 (c : Dev nD) (t : Fin cfg1.N) : (iblk1 V c 5 t : FVec Ideal S128x128 .f32) = V c main_arg9 := by
  funext y
  show V c main_arg9 (((cfg1.win 5).blk t).view.emb y) = V c main_arg9 y
  obtain ⟨-, -, -, ⟨e0, e1⟩, -⟩ := weight_points1 t
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem wblk1_6 (c : Dev nD) (t : Fin cfg1.N) : (iblk1 V c 6 t : FVec Ideal S1x128 .f32) = V c main_v49 := by
  funext y
  show V c main_v49 (((cfg1.win 6).blk t).view.emb y) = V c main_v49 y
  obtain ⟨-, -, -, -, ⟨e0, e1⟩⟩ := weight_points1 t
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-! ## Rows of a node input's block -/

/-- Row r of point t's block of h is row 2000 t + r of the array. -/
theorem blkrow_h (c : Dev nD) (t : Fin cfg1.N) (r : Fin 2000) (R : Fin 50000) (hR : R.val = t.val * 2000 + r.val)
    (cc : Fin 128) : (iblk1 V c 0 t : FVec Ideal S2000x128 .f32) (ix2 r cc) = V c main_arg0 (ix2 R cc) := by
  obtain ⟨⟨a0, b0⟩, ⟨a1, b1⟩, -⟩ := node_points1 t
  show V c main_arg0 (((cfg1.win 0).blk t).view.emb (ix2 r cc)) = V c main_arg0 (ix2 R cc)
  refine congrArg _ (funext fun ax => Fin.ext ?_)
  match ax with
  | ⟨0, _⟩ => show win1_0.index t (0 : Fin 2) * 2000 + 1 * r.val = R.val; omega
  | ⟨1, _⟩ => show win1_0.index t (1 : Fin 2) * 128 + 1 * cc.val = cc.val; omega

/-- Row r of point t's block of agg is row 2000 t + r of the array. -/
theorem blkrow_agg (c : Dev nD) (t : Fin cfg1.N) (r : Fin 2000) (R : Fin 50000) (hR : R.val = t.val * 2000 + r.val)
    (cc : Fin 128) : (iblk1 V c 1 t : FVec Ideal S2000x128 .f32) (ix2 r cc) = V c main_v42 (ix2 R cc) := by
  obtain ⟨⟨a0, b0⟩, ⟨a1, b1⟩, -⟩ := node_points1 t
  show V c main_v42 (((cfg1.win 1).blk t).view.emb (ix2 r cc)) = V c main_v42 (ix2 R cc)
  refine congrArg _ (funext fun ax => Fin.ext ?_)
  match ax with
  | ⟨0, _⟩ => show win1_1.index t (0 : Fin 2) * 2000 + 1 * r.val = R.val; omega
  | ⟨1, _⟩ => show win1_1.index t (1 : Fin 2) * 128 + 1 * cc.val = cc.val; omega

/-! ## The new-feature array -/

/-- The new-feature array as the region leaves it, from the arrays it finds. -/
abbrev nodeOf (c : Dev nD) : FVec Ideal S50000x128 .f32 :=
  nodeOut (V c main_arg0) (V c main_v42) (V c main_v46) (V c main_v47) (V c main_v48) (V c main_arg9) (V c main_v49)

/-- What point t writes back to the new-feature array is block t of `nodeOf`. -/
theorem flushed_node (c : Dev nD) (t : Fin cfg1.N) :
    (dat1 V c).flushed 7 t = ((cfg1.win 7).blk t).view.read (Elt Ideal) (nodeOf V c) := by
  show (cfg1.win 7).cut (grid1.coords t) ((dat1 V c).after 7 t) = _
  rw [after1_7]
  unfold out1_7
  rw [View.canon_unit_zero zero_offsets]
  simp only [View.ld_unit_zero (S := S2000x128) zero_offsets, View.ld_unit_zero (S := S128x128) zero_offsets,
    View.ld_unit_zero (S := S1x128) zero_offsets]
  rw [node_tile, wblk1_2 V c t, wblk1_3 V c t, wblk1_4 V c t, wblk1_5 V c t, wblk1_6 V c t]
  obtain ⟨-, -, ⟨a7, b7⟩⟩ := node_points1 t
  funext j
  show nodeOut (iblk1 V c 0 t : FVec Ideal S2000x128 .f32) (iblk1 V c 1 t : FVec Ideal S2000x128 .f32)
      (V c main_v46) (V c main_v47) (V c main_v48) (V c main_arg9) (V c main_v49) j
    = nodeOf V c (((cfg1.win 7).blk t).view.emb j)
  have hR : ((((cfg1.win 7).blk t).view.emb j) 0).val = t.val * 2000 + (j 0).val := by
    show win1_7.index t (0 : Fin 2) * 2000 + 1 * (j 0).val = t.val * 2000 + (j 0).val
    omega
  have hq : ((((cfg1.win 7).blk t).view.emb j) 1).val = (j 1).val := by
    show win1_7.index t (1 : Fin 2) * 128 + 1 * (j 1).val = (j 1).val
    omega
  exact nodeOut_at _ _ _ _ _ _ _ _ _ j _ hq (blkrow_h V c t (j 0) _ hR) (blkrow_agg V c t (j 0) _ hR)

/-- An index of the new-feature array lies in point t's block iff each coordinate lies in the block's range. -/
theorem mem_blk_node (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v50).slice (win1_7.rect t)).set ↔ _
  rw [View.set_slice_whole, Rect.mem_set_unit]
  exact Iff.rfl

/-- Every row of the new-feature array lies in the block of the point r / 2000. -/
theorem cover_node (i : S50000x128.Idx) :
    ∃ t : Fin cfg1.N, (cfg1.win 7).flush t = true ∧ i ∈ ((cfg1.win 7).blk t).view.set := by
  have hN : cfg1.N = 25 := N_1
  have h0 : (i 0).val < 50000 := (i 0).isLt
  have h1 : (i 1).val < 128 := (i 1).isLt
  have hlt : (i 0).val / 2000 < cfg1.N := by rw [hN]; omega
  refine ⟨⟨(i 0).val / 2000, hlt⟩, flush1_7 _, ?_⟩
  rw [mem_blk_node]
  obtain ⟨-, -, ⟨a7, b7⟩⟩ := node_points1 ⟨(i 0).val / 2000, hlt⟩
  intro a
  match a with
  | ⟨0, _⟩ =>
    show win1_7.index ⟨(i 0).val / 2000, hlt⟩ (0 : Fin 2) * 2000 ≤ (i 0).val
      ∧ (i 0).val < win1_7.index ⟨(i 0).val / 2000, hlt⟩ (0 : Fin 2) * 2000 + 2000
    rw [a7]
    show (i 0).val / 2000 * 2000 ≤ (i 0).val ∧ (i 0).val < (i 0).val / 2000 * 2000 + 2000
    omega
  | ⟨1, _⟩ =>
    show win1_7.index ⟨(i 0).val / 2000, hlt⟩ (1 : Fin 2) * 128 ≤ (i 1).val
      ∧ (i 1).val < win1_7.index ⟨(i 0).val / 2000, hlt⟩ (1 : Fin 2) * 128 + 128
    rw [b7]
    omega

/-- The new-feature array after the region. -/
theorem final_node (c : Dev nD) : (dat1 V c).arrAt 7 cfg1.N = nodeOf V c :=
  (dat1 V c).arrAt_eq_of_cover 7 (nodeOf V c) (fun t _ => flushed_node V c t) cover_node

end Cert.KernelIdeal.Blocks

end
-- ==== Proof.RefLayer.lean ====
/-
  The reference program's stages as the layer's functions.

  With hr = h[row], hc = h[col] and rel = coords[row] − coords[col] the gathered arrays (left as the program's own
  terms: the gathers are never opened), the reference's message array is `messages` of them with the weight matrix
  We1 cut into its three bands of rows (128, 128 and 1), its coordinate terms are `coordTerm` of the messages, and its
  new node features are `nodeOut` of h and the scattered sum of the messages with Wn1 cut into its two bands. The one
  law used is the split of a sum over 257 (or 256) consecutive positions; the rest is each operation read at an index.
-/
import proofs.«133342_j5832565588032_1_alg».proof.Proof.Gen.ReferenceIdeal.Read
import proofs.«133342_j5832565588032_1_alg».proof.Proof.LibLayerSpell

noncomputable section

namespace Cert.ReferenceIdeal.Layer

open Cert.ReferenceIdeal Cert.ReferenceIdeal.Read Idealize.ShloMosaic Idealize.ShloMosaic.ValueIdx
open Cert.GraphLayer Cert.EdgeNode

/-- The squared-length column: the host's sum along axis 1 from the zero word, broadcast to a column. -/
theorem ref_sqCol (x1 : FVec Ideal S50000x3 .f32) (x2 : (⟨S2x600000, .i32⟩ : BufTy).Contents (Elt Ideal)) :
    val_main_v21 (F := Ideal) x1 x2 = sqCol (val_main_v18 (F := Ideal) x1 x2) := by
  funext j
  obtain ⟨a, u, rfl⟩ : ∃ (a : Fin 600000) (u : Fin 1), j = ix2 a u := ⟨j 0, j 1, eq_ix2 j⟩
  rw [val_main_v21_apply, val_main_v20_apply, sqCol_apply, val_main_cst_apply]
  have hz : (FloatOps.ofBits (F := Ideal) .f32 0x00000000#32 : EReal) = 0 := Ideal.ofBits_zero_f32
  rw [hz, zero_add]
  refine Finset.sum_congr rfl fun k _ => ?_
  rw [val_main_v19_apply]
  have e : idx_main_v20 (idx_main_v21 (ix2 a u)) k = ix2 a k :=
    funext fun ax => Fin.ext (by match ax with | ⟨0, _⟩ => rfl | ⟨1, _⟩ => rfl)
  rw [e]
  rfl

/-- The first edge layer before the ramp. -/
theorem ref_hidden (x0 : FVec Ideal S50000x128 .f32) (x1 : FVec Ideal S50000x3 .f32) (x2 : (⟨S2x600000, .i32⟩ : BufTy).Contents (Elt Ideal)) (x3 : FVec Ideal S257x128 .f32) (x4 : FVec Ideal S128 .f32)
    (hs0 : S257x128.Slices ![0, 0] S128x128) (hs1 : S257x128.Slices ![128, 0] S128x128)
    (hs2 : S257x128.Slices ![256, 0] S1x128) (hc4 : S128.ShapeCasts S1x128) :
    val_main_v40 (F := Ideal) x0 x1 x2 x3 x4
      = hidden3 (val_main_v28 (F := Ideal) x0 x2) (val_main_v35 (F := Ideal) x0 x2) (sqCol (val_main_v18 (F := Ideal) x1 x2))
          (extractStridedSlice S128x128 ![0, 0] x3 hs0) (extractStridedSlice S128x128 ![128, 0] x3 hs1)
          (extractStridedSlice S1x128 ![256, 0] x3 hs2) (shapeCast S1x128 x4 hc4) := by
  unfold val_main_v40 val_main_v39 val_main_v38 val_main_v37 val_main_v36
  rw [ref_sqCol x1 x2]
  exact (host_affine _ rfl _ _ hc4 _ x3 x4).trans
    (affine_concat3 257 128 256 rfl rfl rfl _ _ _ _ x3 hs0 hs1 hs2 _)

/-- The messages. -/
theorem ref_messages (x0 : FVec Ideal S50000x128 .f32) (x1 : FVec Ideal S50000x3 .f32) (x2 : (⟨S2x600000, .i32⟩ : BufTy).Contents (Elt Ideal)) (x3 : FVec Ideal S257x128 .f32) (x4 : FVec Ideal S128 .f32) (x5 : FVec Ideal S128x128 .f32) (x6 : FVec Ideal S128 .f32)
    (hs0 : S257x128.Slices ![0, 0] S128x128) (hs1 : S257x128.Slices ![128, 0] S128x128)
    (hs2 : S257x128.Slices ![256, 0] S1x128) (hc4 hc6 : S128.ShapeCasts S1x128) :
    val_main_v45 (F := Ideal) x0 x1 x2 x3 x4 x5 x6
      = messages (val_main_v28 (F := Ideal) x0 x2) (val_main_v35 (F := Ideal) x0 x2) (val_main_v18 (F := Ideal) x1 x2)
          (extractStridedSlice S128x128 ![0, 0] x3 hs0) (extractStridedSlice S128x128 ![128, 0] x3 hs1)
          (extractStridedSlice S1x128 ![256, 0] x3 hs2) (shapeCast S1x128 x4 hc4) x5 (shapeCast S1x128 x6 hc6) := by
  have e41 : val_main_v41 (F := Ideal) x0 x1 x2 x3 x4 = ramp (val_main_v40 (F := Ideal) x0 x1 x2 x3 x4) := by
    unfold val_main_v41 val_main_call0_v0 val_main_call0_cst
    exact host_ramp _ _
  unfold val_main_v45 val_main_v44 val_main_v43 val_main_v42 messages
  rw [e41, ref_hidden x0 x1 x2 x3 x4 hs0 hs1 hs2 hc4]
  exact host_affine _ rfl _ _ hc6 _ x5 x6

/-- The coordinate terms, from the messages. -/
theorem ref_coord (x0 : FVec Ideal S50000x128 .f32) (x1 : FVec Ideal S50000x3 .f32) (x2 : (⟨S2x600000, .i32⟩ : BufTy).Contents (Elt Ideal)) (x3 : FVec Ideal S257x128 .f32) (x4 : FVec Ideal S128 .f32) (x5 : FVec Ideal S128x128 .f32) (x6 : FVec Ideal S128 .f32) (x11 : FVec Ideal S128x128 .f32) (x12 : FVec Ideal S128 .f32) (x13 : FVec Ideal S128x1 .f32) (hc12 : S128.ShapeCasts S1x128) :
    val_main_v66 (F := Ideal) x0 x1 x2 x3 x4 x5 x6 x11 x12 x13
      = coordTerm (val_main_v45 (F := Ideal) x0 x1 x2 x3 x4 x5 x6) (val_main_v18 (F := Ideal) x1 x2) x11
          (shapeCast S1x128 x12 hc12) x13 := by
  have e62 : val_main_v62 (F := Ideal) x0 x1 x2 x3 x4 x5 x6 x11 x12
      = affine (val_main_v45 (F := Ideal) x0 x1 x2 x3 x4 x5 x6) x11 (shapeCast S1x128 x12 hc12) := by
    unfold val_main_v62 val_main_v61 val_main_v60 val_main_v59
    exact host_affine _ rfl _ _ hc12 _ x11 x12
  have e63 : val_main_v63 (F := Ideal) x0 x1 x2 x3 x4 x5 x6 x11 x12
      = ramp (val_main_v62 (F := Ideal) x0 x1 x2 x3 x4 x5 x6 x11 x12) := by
    unfold val_main_v63 val_main_call2_v0 val_main_call2_cst
    exact host_ramp _ _
  unfold val_main_v66 val_main_v65 val_main_v64 coordTerm
  rw [e63, e62, host_lin dot_S600000x128_S128x1_S600000x1_1_0_0_1_n_n rfl]
  exact host_colScale _ _ _

/-- The new node features, from h and the scattered sum of the messages. -/
theorem ref_node (x0 : FVec Ideal S50000x128 .f32) (x1 : FVec Ideal S50000x3 .f32) (x2 : (⟨S2x600000, .i32⟩ : BufTy).Contents (Elt Ideal)) (x3 : FVec Ideal S257x128 .f32) (x4 : FVec Ideal S128 .f32) (x5 : FVec Ideal S128x128 .f32) (x6 : FVec Ideal S128 .f32) (x7 : FVec Ideal S256x128 .f32) (x8 : FVec Ideal S128 .f32) (x9 : FVec Ideal S128x128 .f32) (x10 : FVec Ideal S128 .f32)
    (hs0 : S256x128.Slices ![0, 0] S128x128) (hs1 : S256x128.Slices ![128, 0] S128x128)
    (hc8 hc10 : S128.ShapeCasts S1x128) :
    val_main_v58 (F := Ideal) x0 x1 x2 x3 x4 x5 x6 x7 x8 x9 x10
      = nodeOut x0 (val_main_v48 (F := Ideal) x0 x1 x2 x3 x4 x5 x6)
          (extractStridedSlice S128x128 ![0, 0] x7 hs0) (extractStridedSlice S128x128 ![128, 0] x7 hs1)
          (shapeCast S1x128 x8 hc8) x9 (shapeCast S1x128 x10 hc10) := by
  have e53 : val_main_v53 (F := Ideal) x0 x1 x2 x3 x4 x5 x6 x7 x8
      = hidden2 x0 (val_main_v48 (F := Ideal) x0 x1 x2 x3 x4 x5 x6)
          (extractStridedSlice S128x128 ![0, 0] x7 hs0) (extractStridedSlice S128x128 ![128, 0] x7 hs1)
          (shapeCast S1x128 x8 hc8) := by
    unfold val_main_v53 val_main_v52 val_main_v51 val_main_v50 val_main_v49
    exact (host_affine _ rfl _ _ hc8 _ x7 x8).trans (affine_concat2 256 128 rfl rfl _ _ _ x7 hs0 hs1 _)
  have e54 : val_main_v54 (F := Ideal) x0 x1 x2 x3 x4 x5 x6 x7 x8
      = ramp (val_main_v53 (F := Ideal) x0 x1 x2 x3 x4 x5 x6 x7 x8) := by
    unfold val_main_v54 val_main_call1_v0 val_main_call1_cst
    exact host_ramp _ _
  unfold val_main_v58 val_main_v57 val_main_v56 val_main_v55 nodeOut
  rw [e54, e53]
  exact host_affine _ rfl _ _ hc10 _ x9 x10

end Cert.ReferenceIdeal.Layer

end
-- ==== Proof.KHost.lean ====
/-
  The idealized kernel's two results as the reference's own terms of the arguments.

  The buffers' contents at the five segment boundaries are read back, one boundary at a time, to terms of the argument
  arrays. Before the edge region the host code extracts the two index rows, gathers h at each and coords at each,
  subtracts the two gathered coordinate arrays, cuts We1 into its three bands of rows and turns three bias vectors
  into rows: operation for operation what the reference does, so each such buffer is the reference's term. The edge
  region leaves the message array and the coordinate-term array, which are the reference's by the layer's functions.
  Between the regions both programs scatter-add those two arrays along the first index row into zero arrays; the
  node region leaves the new features; the last host operation adds the scattered coordinate terms to coords.
-/
import proofs.«133342_j5832565588032_1_alg».proof.Proof.KBlocks1
import proofs.«133342_j5832565588032_1_alg».proof.Proof.RefLayer
import Idealize.ShloMosaic.Lib.StableHlo.Run

set_option maxRecDepth 16384

noncomputable section

namespace Cert.KernelIdeal.Host

open Cert.KernelIdeal Cert.KernelIdeal.Gen Cert.KernelIdeal.Blocks
open Idealize.ShloMosaic Idealize.ShloMosaic.TcCoe Idealize.ShloMosaic.Tactic Idealize.SL.Sem
open Cert.GraphLayer Cert.EdgeNode

variable (m : (ℓ : Loc nD τ sig) → Buf (Elt Ideal) ℓ) (ρ : Dev nD → PrngReg) (c : Dev nD)

/-! ## Before the edge region -/

theorem e1_hr : V1 m ρ c main_v10 = Cert.ReferenceIdeal.Read.val_main_v28 (F := Ideal) (m ((c : Thread nD τ).loc main_arg0)) (m ((c : Thread nD τ).loc main_arg2)) := by
  show StableHlo.after hostOps0 (W0 m ρ c) (Proc.devRef .tc main_v10) = _; after_results; rfl
set_option maxHeartbeats 4000000 in
theorem e1_hc : V1 m ρ c main_v17 = Cert.ReferenceIdeal.Read.val_main_v35 (F := Ideal) (m ((c : Thread nD τ).loc main_arg0)) (m ((c : Thread nD τ).loc main_arg2)) := by
  show StableHlo.after hostOps0 (W0 m ρ c) (Proc.devRef .tc main_v17) = _; after_results; rfl
set_option maxHeartbeats 4000000 in
theorem e1_rel : V1 m ρ c main_v32 = Cert.ReferenceIdeal.Read.val_main_v18 (F := Ideal) (m ((c : Thread nD τ).loc main_arg1)) (m ((c : Thread nD τ).loc main_arg2)) := by
  show StableHlo.after hostOps0 (W0 m ρ c) (Proc.devRef .tc main_v32) = _; after_results; rfl
theorem e1_w1a : V1 m ρ c main_v33 = extractStridedSlice S128x128 ![0, 0] (m ((c : Thread nD τ).loc main_arg3)) slices_S257x128_S128x128_0_0 := by
  show StableHlo.after hostOps0 (W0 m ρ c) (Proc.devRef .tc main_v33) = _; after_results
theorem e1_w1b : V1 m ρ c main_v34 = extractStridedSlice S128x128 ![128, 0] (m ((c : Thread nD τ).loc main_arg3)) slices_S257x128_S128x128_128_0 := by
  show StableHlo.after hostOps0 (W0 m ρ c) (Proc.devRef .tc main_v34) = _; after_results
theorem e1_w1d : V1 m ρ c main_v35 = extractStridedSlice S1x128 ![256, 0] (m ((c : Thread nD τ).loc main_arg3)) slices_S257x128_S1x128_256_0 := by
  show StableHlo.after hostOps0 (W0 m ρ c) (Proc.devRef .tc main_v35) = _; after_results
theorem e1_be1 : V1 m ρ c main_v36 = shapeCast S1x128 (m ((c : Thread nD τ).loc main_arg4)) shapeCasts_S128_S1x128 := by
  show StableHlo.after hostOps0 (W0 m ρ c) (Proc.devRef .tc main_v36) = _; after_results; rfl
theorem e1_we2 : V1 m ρ c main_arg5 = (m ((c : Thread nD τ).loc main_arg5)) := by
  show StableHlo.after hostOps0 (W0 m ρ c) (Proc.devRef .tc main_arg5) = _; after_results
theorem e1_be2 : V1 m ρ c main_v37 = shapeCast S1x128 (m ((c : Thread nD τ).loc main_arg6)) shapeCasts_S128_S1x128 := by
  show StableHlo.after hostOps0 (W0 m ρ c) (Proc.devRef .tc main_v37) = _; after_results; rfl
theorem e1_wc1 : V1 m ρ c main_arg11 = (m ((c : Thread nD τ).loc main_arg11)) := by
  show StableHlo.after hostOps0 (W0 m ρ c) (Proc.devRef .tc main_arg11) = _; after_results
theorem e1_bc1 : V1 m ρ c main_v38 = shapeCast S1x128 (m ((c : Thread nD τ).loc main_arg12)) shapeCasts_S128_S1x128 := by
  show StableHlo.after hostOps0 (W0 m ρ c) (Proc.devRef .tc main_v38) = _; after_results; rfl
theorem e1_wc2 : V1 m ρ c main_arg13 = (m ((c : Thread nD τ).loc main_arg13)) := by
  show StableHlo.after hostOps0 (W0 m ρ c) (Proc.devRef .tc main_arg13) = _; after_results
theorem e1_row : V1 m ρ c main_v1 = Cert.ReferenceIdeal.Read.val_main_v1 (F := Ideal) (m ((c : Thread nD τ).loc main_arg2)) := by
  show StableHlo.after hostOps0 (W0 m ρ c) (Proc.devRef .tc main_v1) = _; after_results; rfl
theorem e1_arg0 : V1 m ρ c main_arg0 = (m ((c : Thread nD τ).loc main_arg0)) := by
  show StableHlo.after hostOps0 (W0 m ρ c) (Proc.devRef .tc main_arg0) = _; after_results
theorem e1_arg1 : V1 m ρ c main_arg1 = (m ((c : Thread nD τ).loc main_arg1)) := by
  show StableHlo.after hostOps0 (W0 m ρ c) (Proc.devRef .tc main_arg1) = _; after_results
theorem e1_arg7 : V1 m ρ c main_arg7 = (m ((c : Thread nD τ).loc main_arg7)) := by
  show StableHlo.after hostOps0 (W0 m ρ c) (Proc.devRef .tc main_arg7) = _; after_results
theorem e1_arg8 : V1 m ρ c main_arg8 = (m ((c : Thread nD τ).loc main_arg8)) := by
  show StableHlo.after hostOps0 (W0 m ρ c) (Proc.devRef .tc main_arg8) = _; after_results
theorem e1_arg9 : V1 m ρ c main_arg9 = (m ((c : Thread nD τ).loc main_arg9)) := by
  show StableHlo.after hostOps0 (W0 m ρ c) (Proc.devRef .tc main_arg9) = _; after_results
theorem e1_arg10 : V1 m ρ c main_arg10 = (m ((c : Thread nD τ).loc main_arg10)) := by
  show StableHlo.after hostOps0 (W0 m ρ c) (Proc.devRef .tc main_arg10) = _; after_results

/-! ## After the edge region -/

/-- The message array is the reference's. -/
theorem e2_msg : W2 m ρ c (Proc.devRef .tc main_v39_0) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 12).trans ((final_msg (V1 m ρ) c).trans ?_)
  show messages (V1 m ρ c main_v10) (V1 m ρ c main_v17) (V1 m ρ c main_v32) (V1 m ρ c main_v33) (V1 m ρ c main_v34)
    (V1 m ρ c main_v35) (V1 m ρ c main_v36) (V1 m ρ c main_arg5) (V1 m ρ c main_v37) = _
  rw [e1_hr, e1_hc, e1_rel, e1_w1a, e1_w1b, e1_w1d, e1_be1, e1_we2, e1_be2]
  exact (Cert.ReferenceIdeal.Layer.ref_messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) slices_S257x128_S128x128_0_0 slices_S257x128_S128x128_128_0
    slices_S257x128_S1x128_256_0 shapeCasts_S128_S1x128 shapeCasts_S128_S1x128).symm

/-- The coordinate-term array is the reference's. -/
theorem e2_coord : W2 m ρ c (Proc.devRef .tc main_v39_1) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  refine (W2_arr m ρ c 13).trans ((final_coord (V1 m ρ) c).trans ?_)
  show coordTerm (messages (V1 m ρ c main_v10) (V1 m ρ c main_v17) (V1 m ρ c main_v32) (V1 m ρ c main_v33)
      (V1 m ρ c main_v34) (V1 m ρ c main_v35) (V1 m ρ c main_v36) (V1 m ρ c main_arg5) (V1 m ρ c main_v37))
    (V1 m ρ c main_v32) (V1 m ρ c main_arg11) (V1 m ρ c main_v38) (V1 m ρ c main_arg13) = _
  rw [e1_hr, e1_hc, e1_rel, e1_w1a, e1_w1b, e1_w1d, e1_be1, e1_we2, e1_be2, e1_wc1, e1_bc1, e1_wc2,
    ← Cert.ReferenceIdeal.Layer.ref_messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) slices_S257x128_S128x128_0_0 slices_S257x128_S128x128_128_0
      slices_S257x128_S1x128_256_0 shapeCasts_S128_S1x128 shapeCasts_S128_S1x128]
  exact (Cert.ReferenceIdeal.Layer.ref_coord (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) shapeCasts_S128_S1x128).symm

theorem e2_row : W2 m ρ c (Proc.devRef .tc main_v1) = Cert.ReferenceIdeal.Read.val_main_v1 (F := Ideal) (m ((c : Thread nD τ).loc main_arg2)) :=
  (W2_of_ne m ρ c main_v1 (by decide)).trans (e1_row m ρ c)
theorem e2_arg0 : W2 m ρ c (Proc.devRef .tc main_arg0) = (m ((c : Thread nD τ).loc main_arg0)) :=
  (W2_of_ne m ρ c main_arg0 (by decide)).trans (e1_arg0 m ρ c)
theorem e2_arg1 : W2 m ρ c (Proc.devRef .tc main_arg1) = (m ((c : Thread nD τ).loc main_arg1)) :=
  (W2_of_ne m ρ c main_arg1 (by decide)).trans (e1_arg1 m ρ c)
theorem e2_arg7 : W2 m ρ c (Proc.devRef .tc main_arg7) = (m ((c : Thread nD τ).loc main_arg7)) :=
  (W2_of_ne m ρ c main_arg7 (by decide)).trans (e1_arg7 m ρ c)
theorem e2_arg8 : W2 m ρ c (Proc.devRef .tc main_arg8) = (m ((c : Thread nD τ).loc main_arg8)) :=
  (W2_of_ne m ρ c main_arg8 (by decide)).trans (e1_arg8 m ρ c)
theorem e2_arg9 : W2 m ρ c (Proc.devRef .tc main_arg9) = (m ((c : Thread nD τ).loc main_arg9)) :=
  (W2_of_ne m ρ c main_arg9 (by decide)).trans (e1_arg9 m ρ c)
theorem e2_arg10 : W2 m ρ c (Proc.devRef .tc main_arg10) = (m ((c : Thread nD τ).loc main_arg10)) :=
  (W2_of_ne m ρ c main_arg10 (by decide)).trans (e1_arg10 m ρ c)

/-! ## Before the node region -/

/-- The aggregated messages: both programs scatter-add the message array along the first index row into zeros. -/
theorem e3_agg : V3 m ρ c main_v42 = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v42) = _
  after_results
  rw [e2_row, e2_msg]
  rfl

/-- The scattered coordinate terms. -/
theorem e3_upd : W3 m ρ c (Proc.devRef .tc main_v45) = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  show StableHlo.after hostOps1 (W2 m ρ c) (Proc.devRef .tc main_v45) = _
  after_results
  rw [e2_row, e2_coord]
  rfl

theorem e3_wn1a : V3 m ρ c main_v46 = extractStridedSlice S128x128 ![0, 0] (m ((c : Thread nD τ).loc main_arg7)) slices_S256x128_S128x128_0_0 := by
  show StableHlo.after hostOps1 (W2 m ρ c) (Proc.devRef .tc main_v46) = _
  after_results
  rw [e2_arg7]
theorem e3_wn1b : V3 m ρ c main_v47 = extractStridedSlice S128x128 ![128, 0] (m ((c : Thread nD τ).loc main_arg7)) slices_S256x128_S128x128_128_0 := by
  show StableHlo.after hostOps1 (W2 m ρ c) (Proc.devRef .tc main_v47) = _
  after_results
  rw [e2_arg7]
theorem e3_bn1 : V3 m ρ c main_v48 = shapeCast S1x128 (m ((c : Thread nD τ).loc main_arg8)) shapeCasts_S128_S1x128 := by
  show StableHlo.after hostOps1 (W2 m ρ c) (Proc.devRef .tc main_v48) = _
  after_results
  rw [e2_arg8]
  rfl
theorem e3_bn2 : V3 m ρ c main_v49 = shapeCast S1x128 (m ((c : Thread nD τ).loc main_arg10)) shapeCasts_S128_S1x128 := by
  show StableHlo.after hostOps1 (W2 m ρ c) (Proc.devRef .tc main_v49) = _
  after_results
  rw [e2_arg10]
  rfl
theorem e3_arg0 : V3 m ρ c main_arg0 = (m ((c : Thread nD τ).loc main_arg0)) := by
  show StableHlo.after hostOps1 (W2 m ρ c) (Proc.devRef .tc main_arg0) = _
  after_results
  exact e2_arg0 m ρ c
theorem e3_arg1 : V3 m ρ c main_arg1 = (m ((c : Thread nD τ).loc main_arg1)) := by
  show StableHlo.after hostOps1 (W2 m ρ c) (Proc.devRef .tc main_arg1) = _
  after_results
  exact e2_arg1 m ρ c
theorem e3_arg9 : V3 m ρ c main_arg9 = (m ((c : Thread nD τ).loc main_arg9)) := by
  show StableHlo.after hostOps1 (W2 m ρ c) (Proc.devRef .tc main_arg9) = _
  after_results
  exact e2_arg9 m ρ c

/-! ## After the node region -/

/-- The new-feature array is the reference's. -/
theorem e4_h : W4 m ρ c (Proc.devRef .tc main_v50) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 7).trans ((final_node (V3 m ρ) c).trans ?_)
  show nodeOut (V3 m ρ c main_arg0) (V3 m ρ c main_v42) (V3 m ρ c main_v46) (V3 m ρ c main_v47) (V3 m ρ c main_v48)
    (V3 m ρ c main_arg9) (V3 m ρ c main_v49) = _
  rw [e3_arg0, e3_agg, e3_wn1a, e3_wn1b, e3_bn1, e3_arg9, e3_bn2]
  exact (Cert.ReferenceIdeal.Layer.ref_node (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) slices_S256x128_S128x128_0_0 slices_S256x128_S128x128_128_0
    shapeCasts_S128_S1x128 shapeCasts_S128_S1x128).symm

theorem e4_upd : W4 m ρ c (Proc.devRef .tc main_v45) = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) :=
  (W4_of_ne m ρ c main_v45 (by decide)).trans (e3_upd m ρ c)
theorem e4_arg1 : W4 m ρ c (Proc.devRef .tc main_arg1) = (m ((c : Thread nD τ).loc main_arg1)) :=
  (W4_of_ne m ρ c main_arg1 (by decide)).trans (e3_arg1 m ρ c)

/-! ## The two results -/

/-- The first result, the new node features: the reference's term of the arguments. -/
theorem result_h : W5 m ρ c (Proc.devRef .tc main_v50) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v50) = _
  after_results
  exact e4_h m ρ c

/-- The second result, the new coordinates: coords plus the scattered coordinate terms. -/
theorem result_x : W5 m ρ c (Proc.devRef .tc main_v51) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  show StableHlo.after hostOps2 (W4 m ρ c) (Proc.devRef .tc main_v51) = _
  after_results
  rw [e4_arg1, e4_upd]
  rfl

end Cert.KernelIdeal.Host

end
-- ==== Proof.lean ====
/-
  The kernel and the reference compute one message-passing layer of a graph network with node features h
  (50000 × 128), node coordinates (50000 × 3) and 600000 edges (row, col).

  For each edge, with hr = h[row], hc = h[col], rel = coords[row] − coords[col] and sq = ∑ rel²:
    message = relu (hr · We1[0:128] + hc · We1[128:256] + sq · We1[256] + be1) · We2 + be2
    coordinate term = (relu (message · Wc1 + bc1) · Wc2) · rel
  and for each node, with agg the sum of the messages of the edges whose row is the node:
    new features = relu (h · Wn1[0:128] + agg · Wn1[128:256] + bn1) · Wn2 + bn2
    new coordinates = coords + the sum of the coordinate terms of the edges whose row is the node.

  The kernel computes the edge stage tile by tile (1600 edges at a time) and the node stage tile by tile (2000 nodes at
  a time), with the gathers, the two scattered sums and the last addition done around the two regions; the reference
  computes the same on whole arrays, multiplying the concatenation [hr, hc, sq] by all of We1 and [h, agg] by all
  of Wn1. At the ideal values the two agree entry by entry: each operation is read at an index, the rounding of the
  products' operands to bf16 is the identity, and a sum over 257 (or 256) consecutive positions is the sum of its
  128 + 128 + 1 (or 128 + 128) parts, which holds for every extended real, so the inputs' finiteness is never used.
  The gathers and the scattered sums are the same operations of the same operands in both programs and are never
  opened.

  Proof/LibEdgeNode.lean states the layer's functions and that each reads one row; Proof/LibLayerSpell.lean their tile and
  whole-array spellings and the split of the stacked product; Proof/KTile.lean the two bodies' stores; Proof/KBlocks0.lean
  and Proof/KBlocks1.lean the regions' output arrays; Proof/KRun.lean the kernel's run with its results named;
  Proof/KHost.lean the results as the reference's terms; Proof/RefLayer.lean the reference's stages.
-/
import proofs.«133342_j5832565588032_1_alg».proof.Defs
import proofs.«133342_j5832565588032_1_alg».proof.Proof.Gen.Kernel
import proofs.«133342_j5832565588032_1_alg».proof.Proof.Gen.Kernel.Skeleton
import proofs.«133342_j5832565588032_1_alg».proof.Proof.Gen.Kernel.Launch
import proofs.«133342_j5832565588032_1_alg».proof.Proof.Gen.Kernel.Points
import proofs.«133342_j5832565588032_1_alg».proof.Proof.Gen.Kernel.Frame
import proofs.«133342_j5832565588032_1_alg».proof.Proof.Gen.KernelIdeal
import proofs.«133342_j5832565588032_1_alg».proof.Proof.Gen.KernelIdeal.Skeleton
import proofs.«133342_j5832565588032_1_alg».proof.Proof.Gen.KernelIdeal.Launch
import proofs.«133342_j5832565588032_1_alg».proof.Proof.Gen.KernelIdeal.Points
import proofs.«133342_j5832565588032_1_alg».proof.Proof.Gen.KernelIdeal.Frame
import proofs.«133342_j5832565588032_1_alg».proof.Proof.Gen.ReferenceIdeal
import proofs.«133342_j5832565588032_1_alg».proof.Proof.Gen.Pre_finite_inputs
import proofs.«133342_j5832565588032_1_alg».proof.Proof.Gen.ReferenceIdeal.Run
import proofs.«133342_j5832565588032_1_alg».proof.Proof.Gen.ReferenceIdeal.Read
import proofs.«133342_j5832565588032_1_alg».proof.Proof.KRun
import proofs.«133342_j5832565588032_1_alg».proof.Proof.KHost
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- So does the idealized reference: its run with the two results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- From memories that agree on the arguments both idealized programs end with the new node features and the new
    coordinates at the reference's terms of the kernel's arguments. -/
theorem algebraic : Cert.algebraic_KernelIdeal_ReferenceIdeal := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Host.result_h m ρ c),
        (h c).2.1.trans (Cert.KernelIdeal.Host.result_x m ρ c), (h c).2.2⟩)
      (Cert.KernelIdeal.Run.run_values m ρ)
  · refine (θ_run Cert.ReferenceIdeal.defs _ _).mono (fun r h c => ?_)
      (Cert.ReferenceIdeal.Value.run (F := Ideal) m' ρ')
    obtain ⟨g0, g1, g2, g3, g4, g5, g6, g7, g8, g9, g10, g11, g12, g13⟩ := hagree c
    refine ⟨?_, ?_, (h c).2.2⟩
    · rw [(h c).1, Cert.ReferenceIdeal.Read.val_main_v58_eq, g0, g1, g2, g3, g4, g5, g6, g7, g8, g9, g10]
    · rw [(h c).2.1, Cert.ReferenceIdeal.Read.val_main_v70_eq, g0, g1, g2, g3, g4, g5, g6, g11, g12, g13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
